-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S1024x16 : Shape := ⟨2, ![1024, 16]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S32768x16 .f32) (main_arg1 : FVec F S32768x16 .f32) (main_arg2 : IVec S1024x16 32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S32768x16 .f32 := Host.absf main_arg1
  let main_cst_0 : FVec F S_ .f32 := constant S_ .f32 0x7F800000#32
  let main_v5 : FVec F S32768x16 .f32 := broadcastInDim S32768x16 ![] bcast_S_S32768x16 main_cst_0
  let main_v6 : IVec S32768x16 1 := cmpf .olt main_v4 main_v5
  let main_c_1 : IVec S_ 1 := constantI S_ 1 1#1
  let main_v7 : IVec S_ 1 := (fun x v => Host.reduce IntOp.andi x v reducesTo_S32768x16_S_d0_1 h_S_) main_v6 main_c_1
  let main_v8 : IVec S_ 1 := andi main_v3 main_v7
  let main_c_2 : IVec S_ 32 := constantI S_ 32 0#32
  let main_v9 : IVec S1024x16 32 := broadcastInDim S1024x16 ![] bcast_S_S1024x16 main_c_2
  let main_v10 : IVec S1024x16 1 := cmpi .eq main_arg2 main_v9
  let main_c_3 : IVec S_ 32 := constantI S_ 32 1#32
  let main_v11 : IVec S1024x16 32 := broadcastInDim S1024x16 ![] bcast_S_S1024x16 main_c_3
  let main_v12 : IVec S1024x16 1 := cmpi .eq main_arg2 main_v11
  let main_v13 : IVec S1024x16 1 := ori main_v10 main_v12
  let main_c_4 : IVec S_ 1 := constantI S_ 1 1#1
  let main_v14 : IVec S_ 1 := (fun x v => Host.reduce IntOp.andi x v reducesTo_S1024x16_S_d0_1 h_S_) main_v13 main_c_4
  let main_v15 : IVec S_ 1 := andi main_v8 main_v14
  main_v15
-- ==== Kernel.lean ====
abbrev S32768x16 : Shape := ⟨2, ![32768, 16]⟩
abbrev S1024x16 : Shape := ⟨2, ![1024, 16]⟩
abbrev S16x32768 : Shape := ⟨2, ![16, 32768]⟩
abbrev S128x128 : Shape := ⟨2, ![128, 128]⟩
abbrev S16x2048 : Shape := ⟨2, ![16, 2048]⟩
abbrev S8x128 : Shape := ⟨2, ![8, 128]⟩
abbrev S1024x2048 : Shape := ⟨2, ![1024, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S32768x16, .f32⟩
  | .hbm, ⟨1, _⟩ => ⟨S32768x16, .f32⟩
  | .hbm, ⟨2, _⟩ => ⟨S1024x16, .i32⟩
  | .hbm, ⟨3, _⟩ => ⟨S16x32768, .f32⟩
  | .hbm, ⟨4, _⟩ => ⟨S16x32768, .f32⟩
  | .hbm, ⟨5, _⟩ => ⟨S16x32768, .f32⟩
  | .hbm, ⟨6, _⟩ => ⟨S128x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x16, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S1024x16, .i32⟩
  | .local _ .vmem, ⟨5, _⟩ => ⟨S16x2048, .f32⟩
  | .local _ .vmem, ⟨6, _⟩ => ⟨S16x2048, .f32⟩
  | .local _ .vmem, ⟨7, _⟩ => ⟨S8x128, .f32⟩
  | .local _ .vmem, ⟨8, _⟩ => ⟨S8x128, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S32768x16_S16x32768_1_0 : S32768x16.Transposes [1, 0] S16x32768
  inb_S1024x16_S1024x16_0_0 : ∀ a, (![0, 0] : Fin 2 → Nat) a + S1024x16.size a ≤ S1024x16.size a
  h_S1024x16 : 0 < S1024x16.numel
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  reduces_S1024x2048_S2048 : S1024x2048.Reduces [0] S2048
  shapeCasts_S2048_S1x2048 : S2048.ShapeCasts S1x2048
  broadcasts_S1x2048_S1024x2048 : S1x2048.Broadcasts S1024x2048
  broadcasts_S1x2048_S16x2048 : S1x2048.Broadcasts S16x2048
  reduces_S16x2048_S2048 : S16x2048.Reduces [0] S2048
  reduces_S1x2048_S1 : S1x2048.Reduces [1] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  h_S_ : 0 < S_.numel
  transposes_S16x32768_S32768x16_1_0 : S16x32768.Transposes [1, 0] S32768x16
  dot_S1024x16_S16x2048_S1024x2048_1_0_0_1_n_n_wf : DotDims.WF S1024x16 S16x2048 S1024x2048 [1] [0] [0] [1] [] []
  dot_S1024x16_S1024x2048_S16x2048_0_0_1_1_n_n_wf : DotDims.WF S1024x16 S1024x2048 S16x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x32768.size a
  hwx0_0 : ∀ i : grid0.Coords, EltTy.bits .f32 = 32 ∨ (Rect.block (s := S16x32768) S16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x32768.size a
  hwx0_1 : ∀ i : grid0.Coords, EltTy.bits .f32 = 32 ∨ (Rect.block (s := S16x32768) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .i32 = 32 ∨ (Rect.block (s := S1024x16) S1024x16.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x32768.size a
  hwx0_3 : ∀ i : grid0.Coords, EltTy.bits .f32 = 32 ∨ (Rect.block (s := S16x32768) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

def dot_S1024x16_S16x2048_S1024x2048_1_0_0_1_n_n : DotDims S1024x16 S16x2048 S1024x2048 where
  lhsContracting := [1]
  rhsContracting := [0]
  lhsNonContracting := [0]
  rhsNonContracting := [1]
  lhsBatch := []
  rhsBatch := []
  wf := dot_S1024x16_S16x2048_S1024x2048_1_0_0_1_n_n_wf
def dot_S1024x16_S1024x2048_S16x2048_0_0_1_1_n_n : DotDims S1024x16 S1024x2048 S16x2048 where
  lhsContracting := [0]
  rhsContracting := [0]
  lhsNonContracting := [1]
  rhsNonContracting := [1]
  lhsBatch := []
  rhsBatch := []
  wf := dot_S1024x16_S1024x2048_S16x2048_0_0_1_1_n_n_wf

abbrev win0_0 : Pipeline.Window sig grid0 :=
  Pipeline.Window.ofSpec (Memref.whole main_v0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S16x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x16 : Shape := ⟨2, ![32768, 16]⟩
abbrev S1024x16 : Shape := ⟨2, ![1024, 16]⟩
abbrev S16x32768 : Shape := ⟨2, ![16, 32768]⟩
abbrev S1024x32768 : Shape := ⟨2, ![1024, 32768]⟩
abbrev S_ : Shape := ⟨0, ![]⟩
abbrev S32768 : Shape := ⟨1, ![32768]⟩
abbrev S1x32768 : Shape := ⟨2, ![1, 32768]⟩
abbrev S16x1024 : Shape := ⟨2, ![16, 1024]⟩
abbrev S524288 : Shape := ⟨1, ![524288]⟩

abbrev nBuf : Space → Nat
  | .hbm => 77
  | .vmem => 0
  | .smem => 0
  | _ => 0

abbrev bufTy : (tb : Table) → Fin (tcTables nBuf tb) → BufTy
  | .hbm, ⟨0, _⟩ => ⟨S32768x16, .f32⟩
  | .hbm, ⟨1, _⟩ => ⟨S32768x16, .f32⟩
  | .hbm, ⟨2, _⟩ => ⟨S1024x16, .i32⟩
  | .hbm, ⟨3, _⟩ => ⟨S1024x16, .f32⟩
  | .hbm, ⟨4, _⟩ => ⟨S16x32768, .f32⟩
  | .hbm, ⟨5, _⟩ => ⟨S1024x32768, .f32⟩
  | .hbm, ⟨6, _⟩ => ⟨S_, .f32⟩
  | .hbm, ⟨7, _⟩ => ⟨S32768, .f32⟩
  | .hbm, ⟨8, _⟩ => ⟨S1x32768, .f32⟩
  | .hbm, ⟨9, _⟩ => ⟨S1024x32768, .f32⟩
  | .hbm, ⟨10, _⟩ => ⟨S1024x32768, .f32⟩
  | .hbm, ⟨11, _⟩ => ⟨S1024x32768, .f32⟩
  | .hbm, ⟨12, _⟩ => ⟨S_, .f32⟩
  | .hbm, ⟨13, _⟩ => ⟨S32768, .f32⟩
  | .hbm, ⟨14, _⟩ => ⟨S_, .i32⟩
  | .hbm, ⟨15, _⟩ => ⟨S1024x16, .i32⟩
  | .hbm, ⟨16, _⟩ => ⟨S1024x16, .i1⟩
  | .hbm, ⟨17, _⟩ => ⟨S1024x16, .f32⟩
  | .hbm, ⟨18, _⟩ => ⟨S16x1024, .f32⟩
  | .hbm, ⟨19, _⟩ => ⟨S16x32768, .f32⟩
  | .hbm, ⟨20, _⟩ => ⟨S1x32768, .f32⟩
  | .hbm, ⟨21, _⟩ => ⟨S16x32768, .f32⟩
  | .hbm, ⟨22, _⟩ => ⟨S16x32768, .f32⟩
  | .hbm, ⟨23, _⟩ => ⟨S32768x16, .f32⟩
  | .hbm, ⟨24, _⟩ => ⟨S524288, .f32⟩
  | .hbm, ⟨25, _⟩ => ⟨S524288, .f32⟩
  | .hbm, ⟨26, _⟩ => ⟨S524288, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S524288, .f32⟩
  | .hbm, ⟨31, _⟩ => ⟨S_, .f32⟩
  | .hbm, ⟨32, _⟩ => ⟨S524288, .f32⟩
  | .hbm, ⟨33, _⟩ => ⟨S524288, .f32⟩
  | .hbm, ⟨34, _⟩ => ⟨S_, .f32⟩
  | .hbm, ⟨35, _⟩ => ⟨S524288, .f32⟩
  | .hbm, ⟨36, _⟩ => ⟨S524288, .f32⟩
  | .hbm, ⟨37, _⟩ => ⟨S524288, .f32⟩
  | .hbm, ⟨38, _⟩ => ⟨S_, .f32⟩
  | .hbm, ⟨39, _⟩ => ⟨S524288, .f32⟩
  | .hbm, ⟨40, _⟩ => ⟨S524288, .f32⟩
  | .hbm, ⟨41, _⟩ => ⟨S524288, .f32⟩
  | .hbm, ⟨42, _⟩ => ⟨S524288, .f32⟩
  | .hbm, ⟨43, _⟩ => ⟨S524288, .f32⟩
  | .hbm, ⟨44, _⟩ => ⟨S_, .f32⟩
  | .hbm, ⟨45, _⟩ => ⟨S524288, .f32⟩
  | .hbm, ⟨46, _⟩ => ⟨S524288, .f32⟩
  | .hbm, ⟨47, _⟩ => ⟨S_, .f32⟩
  | .hbm, ⟨48, _⟩ => ⟨S524288, .f32⟩
  | .hbm, ⟨49, _⟩ => ⟨S524288, .f32⟩
  | .hbm, ⟨50, _⟩ => ⟨S524288, .f32⟩
  | .hbm, ⟨51, _⟩ => ⟨S524288, .f32⟩
  | .hbm, ⟨52, _⟩ => ⟨S_, .f32⟩
  | .hbm, ⟨53, _⟩ => ⟨S524288, .f32⟩
  | .hbm, ⟨54, _⟩ => ⟨S524288, .f32⟩
  | .hbm, ⟨55, _⟩ => ⟨S_, .f32⟩
  | .hbm, ⟨56, _⟩ => ⟨S524288, .f32⟩
  | .hbm, ⟨57, _⟩ => ⟨S524288, .f32⟩
  | .hbm, ⟨58, _⟩ => ⟨S_, .f32⟩
  | .hbm, ⟨59, _⟩ => ⟨S524288, .f32⟩
  | .hbm, ⟨60, _⟩ => ⟨S524288, .f32⟩
  | .hbm, ⟨61, _⟩ => ⟨S524288, .f32⟩
  | .hbm, ⟨62, _⟩ => ⟨S_, .f32⟩
  | .hbm, ⟨63, _⟩ => ⟨S524288, .f32⟩
  | .hbm, ⟨64, _⟩ => ⟨S524288, .f32⟩
  | .hbm, ⟨65, _⟩ => ⟨S524288, .f32⟩
  | .hbm, ⟨66, _⟩ => ⟨S_, .f32⟩
  | .hbm, ⟨67, _⟩ => ⟨S524288, .f32⟩
  | .hbm, ⟨68, _⟩ => ⟨S524288, .f32⟩
  | .hbm, ⟨69, _⟩ => ⟨S_, .f32⟩
  | .hbm, ⟨70, _⟩ => ⟨S524288, .f32⟩
  | .hbm, ⟨71, _⟩ => ⟨S524288, .f32⟩
  | .hbm, ⟨72, _⟩ => ⟨S524288, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  transposes_S32768x16_S16x32768_1_0 : S32768x16.Transposes [1, 0] S16x32768
  reducesTo_S1024x32768_S32768_d0 : S1024x32768.ReducesTo [0] S32768
  h_S_ : 0 < S_.numel
  bcast_S32768_S1x32768_1 : S32768.BroadcastsInDim S1x32768 (![1] : Fin 1 → Fin S1x32768.rank)
  bcast_S1x32768_S1024x32768_0_1 : S1x32768.BroadcastsInDim S1024x32768 (![0, 1] : Fin 2 → Fin S1024x32768.rank)
  bcast_S_S1024x16 : S_.BroadcastsInDim S1024x16 (![] : Fin 0 → Fin S1024x16.rank)
  transposes_S1024x16_S16x1024_1_0 : S1024x16.Transposes [1, 0] S16x1024
  bcast_S1x32768_S16x32768_0_1 : S1x32768.BroadcastsInDim S16x32768 (![0, 1] : Fin 2 → Fin S16x32768.rank)
  transposes_S16x32768_S32768x16_1_0 : S16x32768.Transposes [1, 0] S32768x16
  shapeCasts_S32768x16_S524288 : S32768x16.ShapeCasts S524288
  bcast_S_S524288 : S_.BroadcastsInDim S524288 (![] : Fin 0 → Fin S524288.rank)
  reducesTo_S524288_S_d0 : S524288.ReducesTo [0] S_
  dot_S1024x16_S16x32768_S1024x32768_1_0_0_1_n_n_wf : DotDims.WF S1024x16 S16x32768 S1024x32768 [1] [0] [0] [1] [] []
  dot_S16x1024_S1024x32768_S16x32768_1_0_0_1_n_n_wf : DotDims.WF S16x1024 S1024x32768 S16x32768 [1] [0] [0] [1] [] []

variable [Facts₀]

def dot_S1024x16_S16x32768_S1024x32768_1_0_0_1_n_n : DotDims S1024x16 S16x32768 S1024x32768 where
  lhsContracting := [1]
  rhsContracting := [0]
  lhsNonContracting := [0]
  rhsNonContracting := [1]
  lhsBatch := []
  rhsBatch := []
  wf := dot_S1024x16_S16x32768_S1024x32768_1_0_0_1_n_n_wf
def dot_S16x1024_S1024x32768_S16x32768_1_0_0_1_n_n : DotDims S16x1024 S1024x32768 S16x32768 where
  lhsContracting := [1]
  rhsContracting := [0]
  lhsNonContracting := [0]
  rhsNonContracting := [1]
  lhsBatch := []
  rhsBatch := []
  wf := dot_S16x1024_S1024x32768_S16x32768_1_0_0_1_n_n_wf

class Facts : Prop extends Facts₀ where

variable [Facts]
-- ==== Proof.Spec.lean ====
/-
  The focal fidelity loss over a table of legal states, as a function of the inputs, entry by entry.

  A sample has sixteen logits `x l`. A legal state `s` (one of 1024) has a weight row `w s l`; its potential is
  `∑ l, w s l * x l`. With `M` the largest potential, the state's unnormalised mass is `exp (potential - M)`, the
  partition function `Z` is the sum of the masses, and the marginal of label `l` is the sum, over the states, of
  `v s l` times the state's mass, divided by `Z`. The kernel takes `v = w` = the state matrix read as numbers; the
  reference takes `v` = the indicator that the state matrix is positive. They are one matrix when every entry of the
  state matrix is 0 or 1.

  From a marginal `p` and a soft label `g`: the fidelity `√(p g + ε) + √((1-p)(1-g) + ε)`, the agreement
  `p g + (1-p)(1-g)`, the weight `¾ g + ¼ (1-g)`, and the loss `(1 - fidelity) · weight · (1 - agreement)²`, the
  square written as a product by the kernel and as a power by the reference. The result is the mean of the loss
  over all 32768 × 16 entries, the kernel summing tile by tile (16 tiles of 2048 samples), the reference over the
  flat index `16 b + l`.
-/
import Idealize.ShloMosaic.PureOps.Ideal
import Idealize.ShloMosaic.PureOps.Ideal.Laws
import Idealize.ShloMosaic.Lib.ValueIdx

noncomputable section

open scoped BigOperators
open Idealize.ShloMosaic

namespace FocalSpec

/-- The literals of both programs, as the extended reals their f32 words denote. -/
abbrev cEps : EReal := Ideal.ofBits .f32 0x322BCC77#32
abbrev cOne : EReal := Ideal.ofBits .f32 0x3F800000#32
abbrev c34 : EReal := Ideal.ofBits .f32 0x3F400000#32
abbrev c14 : EReal := Ideal.ofBits .f32 0x3E800000#32
abbrev cTwo : EReal := Ideal.ofBits .f32 0x40000000#32
abbrev cCount : EReal := Ideal.ofBits .f32 0x49000000#32
abbrev cNegInf : EReal := Ideal.ofBits .f32 0xFF800000#32

/-- The potential of state `s` on a sample with logits `x`. -/
def pot (w : Fin 1024 → Fin 16 → EReal) (x : Fin 16 → EReal) (s : Fin 1024) : EReal := ∑ l : Fin 16, w s l * x l

/-- The largest potential over the states (the maximum started from `-∞`). -/
def top (w : Fin 1024 → Fin 16 → EReal) (x : Fin 16 → EReal) : EReal :=
  (Finset.univ : Finset (Fin 1024)).fold max cNegInf (pot w x)

/-- The unnormalised mass of state `s`. -/
def mass (w : Fin 1024 → Fin 16 → EReal) (x : Fin 16 → EReal) (s : Fin 1024) : EReal := Ideal.exp (pot w x s - top w x)

/-- The partition function. -/
def part (w : Fin 1024 → Fin 16 → EReal) (x : Fin 16 → EReal) : EReal := ∑ s : Fin 1024, mass w x s

/-- The marginal of label `l`: the `v`-weighted mass over the partition function. -/
def marg (v w : Fin 1024 → Fin 16 → EReal) (x : Fin 16 → EReal) (l : Fin 16) : EReal :=
  Ideal.div (∑ s : Fin 1024, v s l * mass w x s) (part w x)

/-- The fidelity of a marginal `p` to a soft label `g`. -/
def fid (p g : EReal) : EReal := Ideal.sqrt (p * g + cEps) + Ideal.sqrt ((cOne - p) * (cOne - g) + cEps)
/-- Their agreement. -/
def agree (p g : EReal) : EReal := p * g + (cOne - p) * (cOne - g)
/-- The class weight. -/
def weight (g : EReal) : EReal := c34 * g + c14 * (cOne - g)

/-- The loss of one entry, the square as a product. -/
def lossSq (p g : EReal) : EReal := ((cOne - fid p g) * weight g) * ((cOne - agree p g) * (cOne - agree p g))
/-- The loss of one entry, the square as a power. -/
def lossPow (p g : EReal) : EReal := ((cOne - fid p g) * weight g) * Ideal.pow (cOne - agree p g) cTwo

/-- The mean loss, summed tile by tile: 16 tiles of 2048 samples, within a sample over the 16 labels. -/
def meanTiled (v w : Fin 1024 → Fin 16 → EReal) (X Y : Fin 32768 → Fin 16 → EReal) : EReal :=
  Ideal.div (∑ t : Fin 16, ∑ j : Fin 2048, ∑ l : Fin 16,
      lossSq (marg v w (X ⟨t.val * 2048 + j.val, by omega⟩) l) (Y ⟨t.val * 2048 + j.val, by omega⟩ l)) cCount

/-- The mean loss, summed over the flat index `16 b + l`. -/
def meanFlat (v w : Fin 1024 → Fin 16 → EReal) (X Y : Fin 32768 → Fin 16 → EReal) : EReal :=
  Ideal.div (∑ i : Fin 524288,
      lossPow (marg v w (X ⟨i.val / 16, by omega⟩) ⟨i.val % 16, by omega⟩) (Y ⟨i.val / 16, by omega⟩ ⟨i.val % 16, by omega⟩)) cCount

/-- The state matrix read as numbers. -/
def asNumber (S : (⟨2, ![1024, 16]⟩ : Shape).Idx → BitVec 32) (s : Fin 1024) (l : Fin 16) : EReal :=
  FloatOps.sitofp (F := Ideal) .f32 (S (ValueIdx.ix2 s l))
/-- The indicator that an entry of the state matrix is positive. -/
def asIndicator (S : (⟨2, ![1024, 16]⟩ : Shape).Idx → BitVec 32) (s : Fin 1024) (l : Fin 16) : EReal :=
  FloatOps.uitofp (F := Ideal) .f32 (IntOp.cmpi .sgt (S (ValueIdx.ix2 s l)) 0#32)
/-- A [32768, 16] array by its coordinates. -/
def rows (A : (⟨2, ![32768, 16]⟩ : Shape).Idx → EReal) (b : Fin 32768) (l : Fin 16) : EReal := A (ValueIdx.ix2 b l)

end FocalSpec

end
-- ==== Proof.KernelOps.lean ====
/-
  The body's operations that are not pointwise, read at an index of a [states × columns] or [labels × columns]
  tile: the two matrix products as sums over the contracted axis, the column maximum as a fold of `max` over the
  states, and the column sums as sums over the rows.
-/
import proofs.«122330_j50294067036168_2_alg».proof.Proof.Gen.KernelIdeal.Skeleton
import proofs.«122330_j50294067036168_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx FocalSpec

namespace Cert.KernelIdeal.Body

/-! ## The product of the state matrix with a tile of logits: contraction over the 16 labels -/

theorem lhsA_0 (i : S1024x2048.Idx) (q : dot_S1024x16_S16x2048_S1024x2048_1_0_0_1_n_n.contr.Idx) :
    (dot_S1024x16_S16x2048_S1024x2048_1_0_0_1_n_n.lhsIdx i q 0).val = (i 0).val := by
  unfold DotDims.lhsIdx
  rw [dif_neg (show ¬(0 : Fin S1024x16.rank) ∈ dot_S1024x16_S16x2048_S1024x2048_1_0_0_1_n_n.lhsBatch by decide),
    dif_pos (show (0 : Fin S1024x16.rank) ∈ dot_S1024x16_S16x2048_S1024x2048_1_0_0_1_n_n.lhsNonContracting by decide)]
  rfl
theorem lhsA_1 (i : S1024x2048.Idx) (q : dot_S1024x16_S16x2048_S1024x2048_1_0_0_1_n_n.contr.Idx) :
    (dot_S1024x16_S16x2048_S1024x2048_1_0_0_1_n_n.lhsIdx i q 1).val = (q ⟨0, by decide⟩).val :=
  dot_S1024x16_S16x2048_S1024x2048_1_0_0_1_n_n.lhsIdx_val_of_single rfl i q
theorem rhsA_0 (i : S1024x2048.Idx) (q : dot_S1024x16_S16x2048_S1024x2048_1_0_0_1_n_n.contr.Idx) :
    (dot_S1024x16_S16x2048_S1024x2048_1_0_0_1_n_n.rhsIdx i q 0).val = (q ⟨0, by decide⟩).val :=
  dot_S1024x16_S16x2048_S1024x2048_1_0_0_1_n_n.rhsIdx_val_of_single rfl i q
theorem rhsA_1 (i : S1024x2048.Idx) (q : dot_S1024x16_S16x2048_S1024x2048_1_0_0_1_n_n.contr.Idx) :
    (dot_S1024x16_S16x2048_S1024x2048_1_0_0_1_n_n.rhsIdx i q 1).val = (i 1).val := by
  unfold DotDims.rhsIdx
  rw [dif_neg (show ¬(1 : Fin S16x2048.rank) ∈ dot_S1024x16_S16x2048_S1024x2048_1_0_0_1_n_n.rhsBatch by decide),
    dif_pos (show (1 : Fin S16x2048.rank) ∈ dot_S1024x16_S16x2048_S1024x2048_1_0_0_1_n_n.rhsNonContracting by decide)]
  rfl

/-- Entry (s, j) of the state matrix times a tile of logits is the sum over the labels `l` of the state's
    entry at `l` times the tile's entry (l, j). -/
theorem states_mul_apply (a : FVec Ideal S1024x16 .f32) (x : FVec Ideal S16x2048 .f32) (s : Fin 1024) (j : Fin 2048) :
    matmul dot_S1024x16_S16x2048_S1024x2048_1_0_0_1_n_n (some .fp32) a x (constant (F := Ideal) S1024x2048 .f32 0x00000000#32) (ix2 s j)
      = ∑ l : Fin 16, a (ix2 s l) * x (ix2 l j) := by
  simp only [matmul]
  rw [Ideal.matmul_constant_zero_apply,
    ← Equiv.sum_comp (contrEquiv1 dot_S1024x16_S16x2048_S1024x2048_1_0_0_1_n_n 16 rfl rfl).symm]
  refine Finset.sum_congr rfl fun k _ => ?_
  have hk := contrEquiv1_symm_val dot_S1024x16_S16x2048_S1024x2048_1_0_0_1_n_n 16 rfl rfl k
  have el : dot_S1024x16_S16x2048_S1024x2048_1_0_0_1_n_n.lhsIdx (ix2 s j)
      ((contrEquiv1 dot_S1024x16_S16x2048_S1024x2048_1_0_0_1_n_n 16 rfl rfl).symm k) = ix2 s k :=
    funext fun ax => Fin.ext (by
      match ax with
      | ⟨0, _⟩ => exact lhsA_0 _ _
      | ⟨1, _⟩ => exact (lhsA_1 _ _).trans hk)
  have er : dot_S1024x16_S16x2048_S1024x2048_1_0_0_1_n_n.rhsIdx (ix2 s j)
      ((contrEquiv1 dot_S1024x16_S16x2048_S1024x2048_1_0_0_1_n_n 16 rfl rfl).symm k) = ix2 k j :=
    funext fun ax => Fin.ext (by
      match ax with
      | ⟨0, _⟩ => exact (rhsA_0 _ _).trans hk
      | ⟨1, _⟩ => exact rhsA_1 _ _)
  rw [el, er]

/-! ## The transposed state matrix times the tile of masses: contraction over the 1024 states -/

theorem lhsB_0 (i : S16x2048.Idx) (q : dot_S1024x16_S1024x2048_S16x2048_0_0_1_1_n_n.contr.Idx) :
    (dot_S1024x16_S1024x2048_S16x2048_0_0_1_1_n_n.lhsIdx i q 0).val = (q ⟨0, by decide⟩).val :=
  dot_S1024x16_S1024x2048_S16x2048_0_0_1_1_n_n.lhsIdx_val_of_single rfl i q
theorem lhsB_1 (i : S16x2048.Idx) (q : dot_S1024x16_S1024x2048_S16x2048_0_0_1_1_n_n.contr.Idx) :
    (dot_S1024x16_S1024x2048_S16x2048_0_0_1_1_n_n.lhsIdx i q 1).val = (i 0).val := by
  unfold DotDims.lhsIdx
  rw [dif_neg (show ¬(1 : Fin S1024x16.rank) ∈ dot_S1024x16_S1024x2048_S16x2048_0_0_1_1_n_n.lhsBatch by decide),
    dif_pos (show (1 : Fin S1024x16.rank) ∈ dot_S1024x16_S1024x2048_S16x2048_0_0_1_1_n_n.lhsNonContracting by decide)]
  rfl
theorem rhsB_0 (i : S16x2048.Idx) (q : dot_S1024x16_S1024x2048_S16x2048_0_0_1_1_n_n.contr.Idx) :
    (dot_S1024x16_S1024x2048_S16x2048_0_0_1_1_n_n.rhsIdx i q 0).val = (q ⟨0, by decide⟩).val :=
  dot_S1024x16_S1024x2048_S16x2048_0_0_1_1_n_n.rhsIdx_val_of_single rfl i q
theorem rhsB_1 (i : S16x2048.Idx) (q : dot_S1024x16_S1024x2048_S16x2048_0_0_1_1_n_n.contr.Idx) :
    (dot_S1024x16_S1024x2048_S16x2048_0_0_1_1_n_n.rhsIdx i q 1).val = (i 1).val := by
  unfold DotDims.rhsIdx
  rw [dif_neg (show ¬(1 : Fin S1024x2048.rank) ∈ dot_S1024x16_S1024x2048_S16x2048_0_0_1_1_n_n.rhsBatch by decide),
    dif_pos (show (1 : Fin S1024x2048.rank) ∈ dot_S1024x16_S1024x2048_S16x2048_0_0_1_1_n_n.rhsNonContracting by decide)]
  rfl

/-- Entry (l, j) of the transposed state matrix times a tile of masses is the sum over the states `s` of the
    state's entry at `l` times the mass (s, j). -/
theorem statesT_mul_apply (a : FVec Ideal S1024x16 .f32) (e : FVec Ideal S1024x2048 .f32) (l : Fin 16) (j : Fin 2048) :
    matmul dot_S1024x16_S1024x2048_S16x2048_0_0_1_1_n_n (some .fp32) a e (constant (F := Ideal) S16x2048 .f32 0x00000000#32) (ix2 l j)
      = ∑ s : Fin 1024, a (ix2 s l) * e (ix2 s j) := by
  simp only [matmul]
  rw [Ideal.matmul_constant_zero_apply,
    ← Equiv.sum_comp (contrEquiv1 dot_S1024x16_S1024x2048_S16x2048_0_0_1_1_n_n 1024 rfl rfl).symm]
  refine Finset.sum_congr rfl fun k _ => ?_
  have hk := contrEquiv1_symm_val dot_S1024x16_S1024x2048_S16x2048_0_0_1_1_n_n 1024 rfl rfl k
  have el : dot_S1024x16_S1024x2048_S16x2048_0_0_1_1_n_n.lhsIdx (ix2 l j)
      ((contrEquiv1 dot_S1024x16_S1024x2048_S16x2048_0_0_1_1_n_n 1024 rfl rfl).symm k) = ix2 k l :=
    funext fun ax => Fin.ext (by
      match ax with
      | ⟨0, _⟩ => exact (lhsB_0 _ _).trans hk
      | ⟨1, _⟩ => exact lhsB_1 _ _)
  have er : dot_S1024x16_S1024x2048_S16x2048_0_0_1_1_n_n.rhsIdx (ix2 l j)
      ((contrEquiv1 dot_S1024x16_S1024x2048_S16x2048_0_0_1_1_n_n 1024 rfl rfl).symm k) = ix2 k j :=
    funext fun ax => Fin.ext (by
      match ax with
      | ⟨0, _⟩ => exact (rhsB_0 _ _).trans hk
      | ⟨1, _⟩ => exact rhsB_1 _ _)
  rw [el, er]

/-! ## Reductions down a column -/

/-- The maximum over the states of column `j` of a [1024, 2048] tile, started from the word of `-∞`. -/
theorem colmax_apply (v : FVec Ideal S1024x2048 .f32) (j : Fin 2048) :
    multiReduction (F := Ideal) .maximumf [0] S2048 v 0xFF800000#32 reduces_S1024x2048_S2048 (.inl rfl) rfl (ix1 j)
      = (Finset.univ : Finset (Fin 1024)).fold max cNegInf (fun s => v (ix2 s j)) := by
  refine (Ideal.multiReduction_maximumf_single v 0xFF800000#32 reduces_S1024x2048_S2048 (.inl rfl) rfl (ix1 j)).trans ?_
  refine congrArg (fun g => (Finset.univ : Finset (Fin 1024)).fold max cNegInf g) (funext fun s => ?_)
  exact congrArg v (funext fun ax => Fin.ext (by match ax with | ⟨0, _⟩ => rfl | ⟨1, _⟩ => rfl))

/-- The sum over the states of column `j` of a [1024, 2048] tile. -/
theorem colsum_states_apply (v : FVec Ideal S1024x2048 .f32) (j : Fin 2048) :
    multiReduction (F := Ideal) .add [0] S2048 v 0x00000000#32 reduces_S1024x2048_S2048 (.inl rfl) rfl (ix1 j)
      = ∑ s : Fin 1024, v (ix2 s j) := by
  refine (Ideal.multiReduction_add_single v 0x00000000#32 reduces_S1024x2048_S2048 (.inl rfl) rfl (ix1 j)).trans ?_
  refine Finset.sum_congr rfl fun s _ => ?_
  exact congrArg v (funext fun ax => Fin.ext (by match ax with | ⟨0, _⟩ => rfl | ⟨1, _⟩ => rfl))

/-- The sum over the labels of column `j` of a [16, 2048] tile. -/
theorem colsum_labels_apply (v : FVec Ideal S16x2048 .f32) (j : Fin 2048) :
    multiReduction (F := Ideal) .add [0] S2048 v 0x00000000#32 reduces_S16x2048_S2048 (.inl rfl) rfl (ix1 j)
      = ∑ l : Fin 16, v (ix2 l j) := by
  refine (Ideal.multiReduction_add_single v 0x00000000#32 reduces_S16x2048_S2048 (.inl rfl) rfl (ix1 j)).trans ?_
  refine Finset.sum_congr rfl fun s _ => ?_
  exact congrArg v (funext fun ax => Fin.ext (by match ax with | ⟨0, _⟩ => rfl | ⟨1, _⟩ => rfl))

/-- The sum along a [1, 2048] row. -/
theorem rowsum_apply (v : FVec Ideal S1x2048 .f32) (u : Fin 1) :
    multiReduction (F := Ideal) .add [1] S1 v 0x00000000#32 reduces_S1x2048_S1 (.inl rfl) rfl (ix1 u)
      = ∑ j : Fin 2048, v (ix2 (0 : Fin 1) j) := by
  refine (Ideal.multiReduction_add_single v 0x00000000#32 reduces_S1x2048_S1 (.inl rfl) rfl (ix1 u)).trans ?_
  refine Finset.sum_congr rfl fun s _ => ?_
  exact congrArg v (funext fun ax => Fin.ext (by
    match ax with
    | ⟨0, _⟩ => have := u.isLt; show (u : ℕ) = 0; omega
    | ⟨1, _⟩ => rfl))

end Cert.KernelIdeal.Body

end
-- ==== Proof.KernelPay.lean ====
/-
  What the body stores, entry by entry, in terms of the specification.

  The first store is the tile of marginals: entry (l, j) is the marginal of label l for the sample whose logits are
  column j of the loaded tile. The second store is an 8 × 128 tile that holds, at its corner (0, 0), the sum over
  the 2048 columns and the 16 labels of the loss of the entry, and zero elsewhere.
-/
import proofs.«122330_j50294067036168_2_alg».proof.Proof.Gen.KernelIdeal.Skeleton
import proofs.«122330_j50294067036168_2_alg».proof.Proof.Spec
import proofs.«122330_j50294067036168_2_alg».proof.Proof.KernelOps
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx FocalSpec

namespace Cert.KernelIdeal.Body

/-! ## The tiles the body computes, named -/

/-- The tile of potentials: state `s` against column `j`. -/
def potT (v0 : Vec Ideal S1024x16 .i32) (v2 : Vec Ideal S16x2048 .f32) : FVec Ideal S1024x2048 .f32 :=
  matmul dot_S1024x16_S16x2048_S1024x2048_1_0_0_1_n_n (some .fp32) (sitofp .f32 v0 : FVec Ideal S1024x16 .f32)
    (shapeCast S16x2048 v2 shapeCasts_S16x2048_S16x2048 : FVec Ideal S16x2048 .f32) (constant (F := Ideal) S1024x2048 .f32 0x00000000#32)

/-- The tile of masses. -/
def massT (v0 : Vec Ideal S1024x16 .i32) (v2 : Vec Ideal S16x2048 .f32) : FVec Ideal S1024x2048 .f32 :=
  exp (subf (potT v0 v2)
    (broadcastTo S1024x2048 (shapeCast S1x2048
      (multiReduction (F := Ideal) .maximumf [0] S2048 (potT v0 v2) 0xFF800000#32 reduces_S1024x2048_S2048 (.inl rfl) rfl)
      shapeCasts_S2048_S1x2048) broadcasts_S1x2048_S1024x2048))

/-- The first store's value is the quotient of the weighted masses by the column sums of the masses. -/
theorem pay3_eq (v0 : Vec Ideal S1024x16 .i32) (v2 : Vec Ideal S16x2048 .f32) :
    k0_pay3 (F := Ideal) v0 v2
      = divf (matmul dot_S1024x16_S1024x2048_S16x2048_0_0_1_1_n_n (some .fp32) (sitofp .f32 v0 : FVec Ideal S1024x16 .f32) (massT v0 v2)
            (constant (F := Ideal) S16x2048 .f32 0x00000000#32))
          (broadcastTo S16x2048 (shapeCast S1x2048
            (multiReduction (F := Ideal) .add [0] S2048 (massT v0 v2) 0x00000000#32 reduces_S1024x2048_S2048 (.inl rfl) rfl)
            shapeCasts_S2048_S1x2048) broadcasts_S1x2048_S16x2048) := rfl

/-- Column `j` of a [16, 2048] tile as a sample's logits. -/
def col (v : Vec Ideal S16x2048 .f32) (j : Fin 2048) : Fin 16 → EReal := fun l => v (ix2 l j)

theorem potT_apply (v0 : Vec Ideal S1024x16 .i32) (v2 : Vec Ideal S16x2048 .f32) (s : Fin 1024) (j : Fin 2048) :
    potT v0 v2 (ix2 s j) = pot (asNumber v0) (col v2 j) s := by
  unfold potT
  rw [states_mul_apply, shapeCast_self]
  rfl

theorem massT_apply (v0 : Vec Ideal S1024x16 .i32) (v2 : Vec Ideal S16x2048 .f32) (s : Fin 1024) (j : Fin 2048) :
    massT v0 v2 (ix2 s j) = mass (asNumber v0) (col v2 j) s := by
  unfold massT mass
  show Ideal.exp (potT v0 v2 (ix2 s j) - broadcastTo S1024x2048 _ broadcasts_S1x2048_S1024x2048 (ix2 s j)) = _
  rw [potT_apply, broadcastTo_1b_ab_apply, shapeCast_a_1a_apply, colmax_apply]
  unfold top
  refine congrArg (fun g => Ideal.exp (pot (asNumber v0) (col v2 j) s - (Finset.univ : Finset (Fin 1024)).fold max cNegInf g)) ?_
  funext s'
  exact potT_apply v0 v2 s' j

/-- THE FIRST STORE: entry (l, j) is the marginal of label `l` on column `j`. -/
theorem pay3_apply (v0 : Vec Ideal S1024x16 .i32) (v2 : Vec Ideal S16x2048 .f32) (l : Fin 16) (j : Fin 2048) :
    k0_pay3 (F := Ideal) v0 v2 (ix2 l j) = marg (asNumber v0) (asNumber v0) (col v2 j) l := by
  rw [pay3_eq]
  show Ideal.div (matmul dot_S1024x16_S1024x2048_S16x2048_0_0_1_1_n_n (some .fp32) (sitofp .f32 v0 : FVec Ideal S1024x16 .f32) (massT v0 v2)
      (constant (F := Ideal) S16x2048 .f32 0x00000000#32) (ix2 l j))
    (broadcastTo S16x2048 _ broadcasts_S1x2048_S16x2048 (ix2 l j)) = _
  rw [statesT_mul_apply, broadcastTo_1b_ab_apply, shapeCast_a_1a_apply, colsum_states_apply]
  unfold marg part
  refine congrArg₂ Ideal.div (Finset.sum_congr rfl fun s _ => ?_) (Finset.sum_congr rfl fun s _ => massT_apply v0 v2 s j)
  rw [massT_apply]
  rfl

/-! ## The second store -/

/-- The loss tile: entry (l, j) from the marginal tile `p` and the soft-label tile `g`. -/
def lossT (p g : FVec Ideal S16x2048 .f32) : FVec Ideal S16x2048 .f32 := fun i => lossSq (p i) (g i)

/-- The second store's value, with the marginal tile and the label tile named: the corner select of the total of the loss tile. -/
theorem pay1_eq (v0 : Vec Ideal S1024x16 .i32) (v2 v4 : Vec Ideal S16x2048 .f32) :
    k0_pay1 (F := Ideal) (k0_pay2 v4) (k0_pay4 v0 v2 v4) (k0_pay5 v0 v2 v4) (k0_pay6 (F := Ideal))
      = select (andi (cmpi .eq (iota .tc S8x128 32 [0] iota_S8x128_d0_w32) (broadcast S8x128 (0#32 : BitVec 32)))
                     (cmpi .eq (iota .tc S8x128 32 [1] iota_S8x128_d1_w32) (broadcast S8x128 (0#32 : BitVec 32))))
          (broadcastTo S8x128 (shapeCast S1x1 (shapeCast S1x1
            (multiReduction (F := Ideal) .add [1] S1 (shapeCast S1x2048
              (multiReduction (F := Ideal) .add [0] S2048 (lossT (k0_pay3 (F := Ideal) v0 v2) (k0_pay2 v4)) 0x00000000#32 reduces_S16x2048_S2048 (.inl rfl) rfl)
              shapeCasts_S2048_S1x2048) 0x00000000#32 reduces_S1x2048_S1 (.inl rfl) rfl)
            shapeCasts_S1_S1x1) shapeCasts_S1x1_S1x1) broadcasts_S1x1_S8x128)
          (broadcast S8x128 (Scalar.ofBits (F := Ideal) .f32 0x00000000#32)) := rfl

/-- The equality test of a small number against zero, as a bit. -/
theorem cmpi_eq_zero_ofNat (n : ℕ) (hn : n < 4294967296) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro e
      have h2 := congrArg BitVec.toNat e
      simp only [BitVec.toNat_ofNat, BitVec.toNat_zero] at h2
      omega
    simp only [hne]
    rfl

/-- THE SECOND STORE: entry (r, c) of the 8 × 128 tile is, at the corner, the total over the columns and the labels of
    the loss of the entry, and zero elsewhere. -/
theorem pay1_apply (v0 : Vec Ideal S1024x16 .i32) (v2 v4 : Vec Ideal S16x2048 .f32) (r : Fin 8) (c : Fin 128) :
    k0_pay1 (F := Ideal) (k0_pay2 v4) (k0_pay4 v0 v2 v4) (k0_pay5 v0 v2 v4) (k0_pay6 (F := Ideal)) (ix2 r c)
      = if r.val = 0 ∧ c.val = 0 then
          ∑ j : Fin 2048, ∑ l : Fin 16, lossSq (marg (asNumber v0) (asNumber v0) (col v2 j) l) (v4 (ix2 l j))
        else (Ideal.ofBits .f32 0x00000000#32 : EReal) := by
  rw [pay1_eq, select_apply]
  have hb : (andi (cmpi .eq (iota .tc S8x128 32 [0] iota_S8x128_d0_w32) (broadcast S8x128 (0#32 : BitVec 32)))
                     (cmpi .eq (iota .tc S8x128 32 [1] iota_S8x128_d1_w32) (broadcast S8x128 (0#32 : BitVec 32)))) (ix2 r c)
      = if r.val = 0 ∧ c.val = 0 then 1#1 else 0#1 := by
    show IntOp.andi (IntOp.cmpi .eq (iota .tc S8x128 32 [0] iota_S8x128_d0_w32 (ix2 r c)) 0#32)
        (IntOp.cmpi .eq (iota .tc S8x128 32 [1] iota_S8x128_d1_w32 (ix2 r c)) 0#32) = _
    rw [iota_single_apply, iota_single_apply]
    show IntOp.andi (IntOp.cmpi .eq (BitVec.ofNat 32 r.val) 0#32) (IntOp.cmpi .eq (BitVec.ofNat 32 c.val) 0#32) = _
    rw [cmpi_eq_zero_ofNat _ (by have := r.isLt; omega), cmpi_eq_zero_ofNat _ (by have := c.isLt; omega)]
    by_cases hr : r.val = 0 <;> by_cases hc : c.val = 0 <;> simp [hr, hc, IntOp.andi]
  rw [hb]
  by_cases h : r.val = 0 ∧ c.val = 0
  · rw [if_pos h, if_pos h, select_one]
    refine (broadcastTo_apply _ broadcasts_S1x1_S8x128 (ix2 r c) (ix2 (0 : Fin 1) (0 : Fin 1))
      (fun ax => by match ax with | ⟨0, _⟩ => rfl | ⟨1, _⟩ => rfl)).trans ?_
    rw [shapeCast_self, shapeCast_a_1a_apply, rowsum_apply]
    refine Finset.sum_congr rfl fun j _ => ?_
    rw [shapeCast_a_1a_apply, colsum_labels_apply]
    refine Finset.sum_congr rfl fun l _ => ?_
    show lossSq (k0_pay3 (F := Ideal) v0 v2 (ix2 l j)) (shapeCast S16x2048 v4 shapeCasts_S16x2048_S16x2048 (ix2 l j)) = _
    rw [pay3_apply, shapeCast_self]
  · rw [if_neg h, if_neg h, select_zero]
    rfl

end Cert.KernelIdeal.Body

end
-- ==== Proof.KernelBlocks.lean ====
/-
  From what each grid point writes back to the two output arrays as whole functions of the arrays the region finds.

  Grid point t (of 16) reads columns 2048 t … 2048 t + 2047 of the transposed logits and of the transposed soft
  labels, and the whole state matrix. It writes columns 2048 t … 2048 t + 2047 of the [16, 32768] array of marginals,
  and rows 8 t … 8 t + 7 of the [128, 128] array of partial sums: the tile's total loss at (8 t, 0), zero elsewhere.
  The blocks of each output tile its array, so each array ends as one function of the inputs.
-/
import proofs.«122330_j50294067036168_2_alg».proof.Proof.Gen.KernelIdeal.Frame
import proofs.«122330_j50294067036168_2_alg».proof.Proof.KernelPay
import Idealize.ShloMosaic.Lib.Pipeline.Value

set_option maxRecDepth 16384

noncomputable section

open scoped BigOperators
open Cert.KernelIdeal Cert.KernelIdeal.Gen Cert.KernelIdeal.Body Idealize.ShloMosaic Idealize.ShloMosaic.TcCoe Idealize.ShloMosaic.ValueIdx FocalSpec
open Idealize.SL.Sem
open Idealize.ShloMosaic.Pipeline (Dat Cfg Window)

namespace Cert.KernelIdeal.Blocks

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t, as block indices per axis. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = t.val ∧ win0_4.index t (1 : Fin 2) = 0 :=
  (by decide +kernel : ∀ t : Fin grid0.N, _)

/-- Column j of tile t, as a column of the whole array. -/
def tileCol (t : ℕ) (ht : t < 16) (j : Fin 2048) : Fin 32768 := ⟨t * 2048 + j.val, by have := j.isLt; omega⟩

/-! ## The two arrays, as functions of the arrays the region finds -/

/-- The array of marginals: entry (l, b) is the marginal of label l for the sample whose logits are column b. -/
def margArr (Sarr : S1024x16.Idx → BitVec 32) (Ft : S16x32768.Idx → EReal) : S16x32768.Idx → EReal :=
  fun i => marg (asNumber Sarr) (asNumber Sarr) (fun l' => Ft (ix2 l' (i 1))) (i 0)

/-- The total loss of tile t: over its 2048 columns and the 16 labels. -/
def tileLoss (Sarr : S1024x16.Idx → BitVec 32) (Ft Yt : S16x32768.Idx → EReal) (t : ℕ) (ht : t < 16) : EReal :=
  ∑ j : Fin 2048, ∑ l : Fin 16,
    lossSq (marg (asNumber Sarr) (asNumber Sarr) (fun l' => Ft (ix2 l' (tileCol t ht j))) l) (Yt (ix2 l (tileCol t ht j)))

/-- The array of partial sums: row 8 t, column 0 holds tile t's total, every other entry zero. -/
def partArr (Sarr : S1024x16.Idx → BitVec 32) (Ft Yt : S16x32768.Idx → EReal) : S128x128.Idx → EReal :=
  fun i => if (i 0).val % 8 = 0 ∧ (i 1).val = 0 then
      tileLoss Sarr Ft Yt ((i 0).val / 8) (by have := idx2_lt0 i; omega)
    else (Ideal.ofBits .f32 0x00000000#32 : EReal)

/-! ## The input blocks -/

/-- The state matrix's one block is the whole matrix. -/
theorem iblk2_eq (c : Dev nD) (t : Fin cfg0.N) :
    (iblk m c 2 t : Vec Ideal S1024x16 .i32) = (V m c main_arg2 : S1024x16.Idx → BitVec 32) := by
  obtain ⟨-, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1024 + 1 * (y 0).val = (y 0).val; omega
  | ⟨1, _⟩ => show win0_2.index t (1 : Fin 2) * 16 + 1 * (y 1).val = (y 1).val; omega

/-- Entry (l, j) of the logits' block at point t is entry (l, 2048 t + j) of the transposed logits. -/
theorem iblk0_apply (c : Dev nD) (t : Fin cfg0.N) (ht : t.val < 16) (l : Fin 16) (j : Fin 2048) :
    (iblk m c 0 t : Vec Ideal S16x2048 .f32) (ix2 l j) = (V m c main_v0 : S16x32768.Idx → EReal) (ix2 l (tileCol t.val ht j)) := by
  obtain ⟨e0, e1, -⟩ := idx_facts t
  show V m c main_v0 (((cfg0.win 0).blk t).view.emb (ix2 l j)) = V m c main_v0 (ix2 l (tileCol t.val ht j))
  refine congrArg (V m c main_v0) (funext fun a => Fin.ext ?_)
  match a with
  | ⟨0, _⟩ => show win0_0.index t (0 : Fin 2) * 16 + 1 * l.val = l.val; omega
  | ⟨1, _⟩ => show win0_0.index t (1 : Fin 2) * 2048 + 1 * j.val = t.val * 2048 + j.val; omega

/-- Entry (l, j) of the soft labels' block at point t is entry (l, 2048 t + j) of the transposed soft labels. -/
theorem iblk1_apply (c : Dev nD) (t : Fin cfg0.N) (ht : t.val < 16) (l : Fin 16) (j : Fin 2048) :
    (iblk m c 1 t : Vec Ideal S16x2048 .f32) (ix2 l j) = (V m c main_v1 : S16x32768.Idx → EReal) (ix2 l (tileCol t.val ht j)) := by
  obtain ⟨-, -, e0, e1, -⟩ := idx_facts t
  show V m c main_v1 (((cfg0.win 1).blk t).view.emb (ix2 l j)) = V m c main_v1 (ix2 l (tileCol t.val ht j))
  refine congrArg (V m c main_v1) (funext fun a => Fin.ext ?_)
  match a with
  | ⟨0, _⟩ => show win0_1.index t (0 : Fin 2) * 16 + 1 * l.val = l.val; omega
  | ⟨1, _⟩ => show win0_1.index t (1 : Fin 2) * 2048 + 1 * j.val = t.val * 2048 + j.val; omega

/-! ## What each point writes back -/

theorem marg_congr {S1 S2 : S1024x16.Idx → BitVec 32} {x1 x2 : Fin 16 → EReal} {l1 l2 : Fin 16}
    (hS : S1 = S2) (hx : x1 = x2) (hl : l1 = l2) :
    marg (asNumber S1) (asNumber S1) x1 l1 = marg (asNumber S2) (asNumber S2) x2 l2 := by
  subst hS hx hl; rfl

/-- The first store at any index of the tile. -/
theorem pay3_at (v0 : Vec Ideal S1024x16 .i32) (v2 : Vec Ideal S16x2048 .f32) (y : S16x2048.Idx) :
    k0_pay3 (F := Ideal) v0 v2 y = marg (asNumber v0) (asNumber v0) (col v2 (y 1)) (y 0) := by
  exact (congrArg (k0_pay3 (F := Ideal) v0 v2) (eq_ix2 (n0 := 16) (n1 := 2048) y)).trans (pay3_apply v0 v2 (y 0) (y 1))

/-- The second store at any index of the tile. -/
theorem pay1_at (v0 : Vec Ideal S1024x16 .i32) (v2 v4 : Vec Ideal S16x2048 .f32) (y : S8x128.Idx) :
    k0_pay1 (F := Ideal) (k0_pay2 v4) (k0_pay4 v0 v2 v4) (k0_pay5 v0 v2 v4) (k0_pay6 (F := Ideal)) y
      = if (y 0).val = 0 ∧ (y 1).val = 0 then
          ∑ j : Fin 2048, ∑ l : Fin 16, lossSq (marg (asNumber v0) (asNumber v0) (col v2 j) l) (v4 (ix2 l j))
        else (Ideal.ofBits .f32 0x00000000#32 : EReal) := by
  exact (congrArg (k0_pay1 (F := Ideal) (k0_pay2 v4) (k0_pay4 v0 v2 v4) (k0_pay5 v0 v2 v4) (k0_pay6 (F := Ideal)))
    (eq_ix2 (n0 := 8) (n1 := 128) y)).trans (pay1_apply v0 v2 v4 (y 0) (y 1))

/-- Point t writes back block t of the array of marginals. -/
theorem flushed3_eq (c : Dev nD) (t : Fin cfg0.N) :
    (dats m 0 c).flushed 3 t = ((cfg0.win 3).blk t).view.read (Elt Ideal) (margArr (V m c main_arg2) (V m c main_v0)) := by
  obtain ⟨a0, a1, -, -, -, -, e0, e1, -⟩ := idx_facts t
  show (cfg0.win 3).cut (grid0.coords t) ((dats m 0 c).after 3 t) = _
  rw [after0_3]
  unfold out0_3
  rw [View.canon_unit_zero hz]
  simp only [View.ld_unit_zero (S := S1024x16) hz, View.ld_unit_zero (S := S16x2048) hz]
  funext y
  show k0_pay3 (F := Ideal) (iblk m c 2 t) (iblk m c 0 t) y
    = margArr (V m c main_arg2) (V m c main_v0) (((cfg0.win 3).blk t).view.emb y)
  refine (pay3_at (iblk m c 2 t) (iblk m c 0 t) y).trans ?_
  unfold margArr
  refine marg_congr (iblk2_eq m c t) (funext fun l' => ?_) (Fin.ext ?_)
  · show V m c main_v0 (((cfg0.win 0).blk t).view.emb (ix2 l' (y 1)))
      = V m c main_v0 (ix2 l' ((((cfg0.win 3).blk t).view.emb y) 1))
    refine congrArg (V m c main_v0) (funext fun a => Fin.ext ?_)
    match a with
    | ⟨0, _⟩ => show win0_0.index t (0 : Fin 2) * 16 + 1 * l'.val = l'.val; omega
    | ⟨1, _⟩ => show win0_0.index t (1 : Fin 2) * 2048 + 1 * (y 1).val = win0_3.index t (1 : Fin 2) * 2048 + 1 * (y 1).val; omega
  · show (y 0).val = win0_3.index t (0 : Fin 2) * 16 + 1 * (y 0).val; omega

/-- Point t writes back block t of the array of partial sums. -/
theorem flushed4_eq (c : Dev nD) (t : Fin cfg0.N) :
    (dats m 0 c).flushed 4 t
      = ((cfg0.win 4).blk t).view.read (Elt Ideal) (partArr (V m c main_arg2) (V m c main_v0) (V m c main_v1)) := by
  have ht' : t.val < grid0.N := t.isLt
  have hN : grid0.N = 16 := N_0
  have ht : t.val < 16 := by omega
  obtain ⟨a0, a1, b0, b1, -, -, -, -, e0, e1⟩ := idx_facts t
  show (cfg0.win 4).cut (grid0.coords t) ((dats m 0 c).after 4 t) = _
  rw [after0_4]
  unfold out0_4
  rw [View.canon_unit_zero hz]
  simp only [View.ld_unit_zero (S := S1024x16) hz, View.ld_unit_zero (S := S16x2048) hz]
  funext y
  show k0_pay1 (F := Ideal) (k0_pay2 (iblk m c 1 t)) (k0_pay4 (iblk m c 2 t) (iblk m c 0 t) (iblk m c 1 t))
      (k0_pay5 (iblk m c 2 t) (iblk m c 0 t) (iblk m c 1 t)) (k0_pay6 (F := Ideal)) y
    = partArr (V m c main_arg2) (V m c main_v0) (V m c main_v1) (((cfg0.win 4).blk t).view.emb y)
  refine (pay1_at (iblk m c 2 t) (iblk m c 0 t) (iblk m c 1 t) y).trans ?_
  have hy0 : (y 0).val < 8 := idx2_lt0 (n0 := 8) (n1 := 128) y
  have hr : ((((cfg0.win 4).blk t).view.emb y) 0).val = t.val * 8 + (y 0).val := by
    show win0_4.index t (0 : Fin 2) * 8 + 1 * (y 0).val = _; omega
  have hc : ((((cfg0.win 4).blk t).view.emb y) 1).val = (y 1).val := by
    show win0_4.index t (1 : Fin 2) * 128 + 1 * (y 1).val = _; omega
  unfold partArr
  by_cases h : (y 0).val = 0 ∧ (y 1).val = 0
  · have h' : ((((cfg0.win 4).blk t).view.emb y) 0).val % 8 = 0 ∧ ((((cfg0.win 4).blk t).view.emb y) 1).val = 0 := by
      rw [hr, hc]; omega
    rw [if_pos h, if_pos h']
    unfold tileLoss
    have hq : ((((cfg0.win 4).blk t).view.emb y) 0).val / 8 = t.val := by rw [hr]; omega
    refine Finset.sum_congr rfl fun j _ => Finset.sum_congr rfl fun l _ => ?_
    have hcol : tileCol (((((cfg0.win 4).blk t).view.emb y) 0).val / 8) (by rw [hq]; exact ht) j = tileCol t.val ht j :=
      Fin.ext (by show _ * 2048 + j.val = t.val * 2048 + j.val; rw [hq])
    rw [hcol]
    refine congrArg₂ lossSq (marg_congr (iblk2_eq m c t) (funext fun l' => ?_) rfl) ?_
    · exact iblk0_apply m c t ht l' j
    · exact iblk1_apply m c t ht l j
  · have h' : ¬(((((cfg0.win 4).blk t).view.emb y) 0).val % 8 = 0 ∧ ((((cfg0.win 4).blk t).view.emb y) 1).val = 0) := by
      rw [hr, hc]; omega
    rw [if_neg h, if_neg h']

/-! ## The blocks tile the arrays -/

theorem mem_blk3 (t : Fin cfg0.N) (i : S16x32768.Idx) :
    i ∈ ((cfg0.win 3).blk t).view.set ↔ ∀ a : Fin 2, win0_3.index t a * S16x2048.size a ≤ (i a).val ∧ (i a).val < win0_3.index t a * S16x2048.size a + S16x2048.size a := by
  show i ∈ ((View.whole main_v2_0).slice (win0_3.rect t)).set ↔ _
  rw [View.set_slice_whole, Rect.mem_set_unit]
  exact Iff.rfl

theorem mem_blk4 (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v2_1).slice (win0_4.rect t)).set ↔ _
  rw [View.set_slice_whole, Rect.mem_set_unit]
  exact Iff.rfl

/-- Column b of the array of marginals lies in the block of point b / 2048. -/
theorem cover3 (i : S16x32768.Idx) : ∃ t : Fin cfg0.N, (cfg0.win 3).flush t = true ∧ i ∈ ((cfg0.win 3).blk t).view.set := by
  have hN : grid0.N = 16 := N_0
  have h0 : (i 0).val < 16 := idx2_lt0 (n0 := 16) (n1 := 32768) i
  have h1 : (i 1).val < 32768 := idx2_lt1 (n0 := 16) (n1 := 32768) i
  let t : Fin cfg0.N := ⟨(i 1).val / 2048, by show _ < grid0.N; omega⟩
  obtain ⟨-, -, -, -, -, -, e0, e1, -⟩ := idx_facts t
  have e1' : win0_3.index t (1 : Fin 2) = (i 1).val / 2048 := e1
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 2048 ≤ (i 1).val ∧ (i 1).val < win0_3.index t (1 : Fin 2) * 2048 + 2048; omega

/-- Row R of the array of partial sums lies in the block of point R / 8. -/
theorem cover4 (i : S128x128.Idx) : ∃ t : Fin cfg0.N, (cfg0.win 4).flush t = true ∧ i ∈ ((cfg0.win 4).blk t).view.set := by
  have hN : grid0.N = 16 := N_0
  have h0 : (i 0).val < 128 := idx2_lt0 (n0 := 128) (n1 := 128) i
  have h1 : (i 1).val < 128 := idx2_lt1 (n0 := 128) (n1 := 128) i
  let t : Fin cfg0.N := ⟨(i 0).val / 8, by show _ < grid0.N; omega⟩
  obtain ⟨-, -, -, -, -, -, -, -, e0, e1⟩ := idx_facts t
  have e0' : win0_4.index t (0 : Fin 2) = (i 0).val / 8 := e0
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-! ## The arrays after the region -/

theorem final3 (c : Dev nD) : (dats m 0 c).arrAt 3 cfg0.N = margArr (V m c main_arg2) (V m c main_v0) :=
  (dats m 0 c).arrAt_eq_of_cover 3 (margArr (V m c main_arg2) (V m c main_v0)) (fun t _ => flushed3_eq m c t) cover3

theorem final4 (c : Dev nD) : (dats m 0 c).arrAt 4 cfg0.N = partArr (V m c main_arg2) (V m c main_v0) (V m c main_v1) :=
  (dats m 0 c).arrAt_eq_of_cover 4 (partArr (V m c main_arg2) (V m c main_v0) (V m c main_v1)) (fun t _ => flushed4_eq m c t) cover4

end Cert.KernelIdeal.Blocks

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.KernelRun.lean ====
/-
  The kernel program's two results as functions of its arguments.

  Before the region the logits and the soft labels are transposed; after it the array of marginals is transposed back,
  and the array of partial sums is summed and divided by the number of entries. The array of partial sums holds one
  tile total per eight rows and zeros elsewhere, so its sum is the sum of the sixteen tile totals.
-/
import proofs.«122330_j50294067036168_2_alg».proof.Proof.KernelBlocks
import proofs.«122330_j50294067036168_2_alg».proof.Proof.LibRealSums
import Idealize.ShloMosaic.Lib.StableHlo.Run
import Idealize.ShloMosaic.Lib.ValueLayout

set_option maxRecDepth 16384

noncomputable section

open scoped BigOperators
open Cert.KernelIdeal Cert.KernelIdeal.Gen Cert.KernelIdeal.Body Cert.KernelIdeal.Blocks Idealize.ShloMosaic Idealize.ShloMosaic.TcCoe Idealize.ShloMosaic.ValueIdx FocalSpec
open Idealize.SL.Sem Idealize.ShloMosaic.StableHlo
open Idealize.ShloMosaic.Pipeline (Dat Cfg Window)

namespace Cert.KernelIdeal.Whole

variable (m : (ℓ : Loc nD τ sig) → Buf (Elt Ideal) ℓ) (ρ : Dev nD → PrngReg)

/-! ## Before the region -/

/-- The region finds the logits transposed. -/
theorem V_main_v0 (c : Dev nD) : (V m c main_v0 : S16x32768.Idx → EReal)
    = transpose S16x32768 [1, 0] (m ((c : Thread nD τ).loc main_arg0)) transposes_S32768x16_S16x32768_1_0 := by
  show StableHlo.after hostOps0 (fun b => m (c, b)) (Proc.devRef .tc main_v0) = _
  after_results

/-- The region finds the soft labels transposed. -/
theorem V_main_v1 (c : Dev nD) : (V m c main_v1 : S16x32768.Idx → EReal)
    = transpose S16x32768 [1, 0] (m ((c : Thread nD τ).loc main_arg1)) transposes_S32768x16_S16x32768_1_0 := by
  show StableHlo.after hostOps0 (fun b => m (c, b)) (Proc.devRef .tc main_v1) = _
  after_results

/-! ## After the region -/

/-- The second result is the array of marginals transposed back. -/
theorem tail_v5 (c : Dev nD) : Pipeline.afterTail₀ cfgs (dats m) 0 (V0 m) [hostOps1] c main_v5
    = transpose S32768x16 [1, 0] ((dats m 0 c).arrAt 3 cfg0.N) transposes_S16x32768_S32768x16_1_0 := by
  unfold Pipeline.afterTail₀
  show StableHlo.after hostOps1 _ (Proc.devRef .tc main_v5) = _
  after_results
  exact congrArg (fun A => transpose S32768x16 [1, 0] A transposes_S16x32768_S32768x16_1_0)
    (Pipeline.withArrays_arr spec0 launch0.win.arr_inj c _ _ 3)

/-- The mean of an array of partial sums: its sum from zero, over the number of entries. -/
def meanOf (A : S128x128.Idx → EReal) : S_.Idx → EReal :=
  Host.divf (F := Ideal) (Host.reduceAdd (F := Ideal) A (constant (F := Ideal) S_ .f32 0x00000000#32) reducesTo_S128x128_S_d0_1 h_S_)
    (constant (F := Ideal) S_ .f32 0x49000000#32)

/-- The first result is the mean of the array of partial sums. -/
theorem tail_v4 (c : Dev nD) : Pipeline.afterTail₀ cfgs (dats m) 0 (V0 m) [hostOps1] c main_v4
    = meanOf ((dats m 0 c).arrAt 4 cfg0.N) := by
  unfold Pipeline.afterTail₀
  show StableHlo.after hostOps1 _ (Proc.devRef .tc main_v4) = _
  after_results
  exact congrArg meanOf (Pipeline.withArrays_arr spec0 launch0.win.arr_inj c _ _ 4)

/-! ## The sum of the array of partial sums -/

theorem tileLoss_congr (Sarr : S1024x16.Idx → BitVec 32) (Ft Yt : S16x32768.Idx → EReal) {a b : ℕ} (ha : a < 16) (hb : b < 16)
    (h : a = b) : tileLoss Sarr Ft Yt a ha = tileLoss Sarr Ft Yt b hb := by
  subst h; rfl

/-- Row R of the array of partial sums adds up to tile R / 8's total when 8 divides R, and to zero otherwise. -/
def rowVal (Sarr : S1024x16.Idx → BitVec 32) (Ft Yt : S16x32768.Idx → EReal) (R : Fin 128) : EReal :=
  if R.val % 8 = 0 then tileLoss Sarr Ft Yt (R.val / 8) (by have := R.isLt; omega) else 0

theorem row_sum (Sarr : S1024x16.Idx → BitVec 32) (Ft Yt : S16x32768.Idx → EReal) (R : Fin 128) :
    ∑ C : Fin 128, partArr Sarr Ft Yt (ix2 R C) = rowVal Sarr Ft Yt R := by
  rw [Finset.sum_eq_single (0 : Fin 128)]
  · unfold partArr rowVal
    show (if R.val % 8 = 0 ∧ (0 : Fin 128).val = 0 then _ else _) = _
    by_cases h : R.val % 8 = 0
    · rw [if_pos ⟨h, rfl⟩, if_pos h]
    · rw [if_neg (fun hh => h hh.1), if_neg h]; exact Ideal.ofBits_zero_f32
  · intro C _ hC
    unfold partArr
    show (if R.val % 8 = 0 ∧ C.val = 0 then _ else _) = (0 : EReal)
    rw [if_neg (fun hh => hC (Fin.ext hh.2))]; exact Ideal.ofBits_zero_f32
  · intro h; exact absurd (Finset.mem_univ _) h

/-- The array of partial sums adds up to the sum of the sixteen tile totals. -/
theorem sum_partArr (Sarr : S1024x16.Idx → BitVec 32) (Ft Yt : S16x32768.Idx → EReal) :
    ∑ i : S128x128.Idx, partArr Sarr Ft Yt i = ∑ t : Fin 16, tileLoss Sarr Ft Yt t.val t.isLt := by
  rw [sum_idx2 (n0 := 128) (n1 := 128)]
  rw [Finset.sum_congr rfl fun R _ => row_sum Sarr Ft Yt R]
  refine (LibRealSums.sum_tiles (m := 16) (n := 8) (N := 128) (by norm_num) (rowVal Sarr Ft Yt)).symm.trans ?_
  refine Finset.sum_congr rfl fun t _ => ?_
  rw [Finset.sum_eq_single (0 : Fin 8)]
  · unfold rowVal
    show (if (t.val * 8 + (0 : Fin 8).val) % 8 = 0 then _ else _) = _
    rw [if_pos (by show (t.val * 8 + 0) % 8 = 0; omega)]
    exact tileLoss_congr Sarr Ft Yt _ _ (by show (t.val * 8 + 0) / 8 = t.val; omega)
  · intro r _ hr
    unfold rowVal
    show (if (t.val * 8 + r.val) % 8 = 0 then _ else _) = (0 : EReal)
    rw [if_neg]
    intro h
    exact hr (Fin.ext (by have := r.isLt; show r.val = 0; omega))
  · intro h; exact absurd (Finset.mem_univ _) h

/-! ## The two results -/

/-- The second result: entry (b, l) is the marginal of label l for sample b. -/
def marginals (S : S1024x16.Idx → BitVec 32) (f : S32768x16.Idx → EReal) : S32768x16.Idx → EReal :=
  fun i => marg (asNumber S) (asNumber S) (rows f (i 0)) (i 1)

/-- The first result: the mean loss, summed tile by tile. -/
def meanLoss (S : S1024x16.Idx → BitVec 32) (f y : S32768x16.Idx → EReal) : S_.Idx → EReal :=
  fun _ => meanTiled (asNumber S) (asNumber S) (rows f) (rows y)

theorem transposed_apply (f : S32768x16.Idx → EReal) (l : Fin 16) (b : Fin 32768) :
    transpose S16x32768 [1, 0] f transposes_S32768x16_S16x32768_1_0 (ix2 l b) = f (ix2 b l) :=
  transpose_ix2_apply f transposes_S32768x16_S16x32768_1_0 l b

/-- The array of marginals transposed back is `marginals` of the arguments. -/
theorem marginals_eq (S : S1024x16.Idx → BitVec 32) (f : S32768x16.Idx → EReal) :
    transpose S32768x16 [1, 0] (margArr S (transpose S16x32768 [1, 0] f transposes_S32768x16_S16x32768_1_0)) transposes_S16x32768_S32768x16_1_0
      = marginals S f := by
  funext i
  obtain ⟨b, l, rfl⟩ : ∃ (b : Fin 32768) (l : Fin 16), i = ix2 b l := ⟨i 0, i 1, eq_ix2 i⟩
  refine (transpose_ix2_apply _ transposes_S16x32768_S32768x16_1_0 b l).trans ?_
  unfold margArr marginals
  refine marg_congr rfl (funext fun l' => ?_) rfl
  exact transposed_apply f l' b

/-- A tile's total loss over the transposed arrays, in the arguments' own coordinates. -/
theorem tileLoss_eq (S : S1024x16.Idx → BitVec 32) (f y : S32768x16.Idx → EReal) (t : Fin 16) :
    tileLoss S (transpose S16x32768 [1, 0] f transposes_S32768x16_S16x32768_1_0)
        (transpose S16x32768 [1, 0] y transposes_S32768x16_S16x32768_1_0) t.val t.isLt
      = ∑ j : Fin 2048, ∑ l : Fin 16,
          lossSq (marg (asNumber S) (asNumber S) (rows f ⟨t.val * 2048 + j.val, by omega⟩) l) (rows y ⟨t.val * 2048 + j.val, by omega⟩ l) := by
  unfold tileLoss
  refine Finset.sum_congr rfl fun j _ => Finset.sum_congr rfl fun l _ => ?_
  refine congrArg₂ lossSq (marg_congr rfl (funext fun l' => ?_) rfl) ?_
  · exact transposed_apply f l' (tileCol t.val t.isLt j)
  · exact transposed_apply y l (tileCol t.val t.isLt j)

/-- The mean of the array of partial sums is `meanLoss` of the arguments. -/
theorem meanLoss_eq (S : S1024x16.Idx → BitVec 32) (f y : S32768x16.Idx → EReal) :
    meanOf (partArr S (transpose S16x32768 [1, 0] f transposes_S32768x16_S16x32768_1_0)
        (transpose S16x32768 [1, 0] y transposes_S32768x16_S16x32768_1_0)) = meanLoss S f y := by
  funext i
  unfold meanOf meanLoss meanTiled
  show Ideal.div (Ideal.hostReduceAdd reducesTo_S128x128_S_d0_1 _ (Ideal.ofBits .f32 0x00000000#32) i) cCount = _
  rw [Ideal.hostReduceAdd_total reducesTo_S128x128_S_d0_1 (fun b => b.elim0), Ideal.ofBits_zero_f32, zero_add, sum_partArr]
  refine congrArg (fun x => Ideal.div x cCount) (Finset.sum_congr rfl fun t _ => tileLoss_eq S f y t)

/-! ## The run -/

theorem v5_eq (c : Dev nD) : Pipeline.afterTail₀ cfgs (dats m) 0 (V0 m) [hostOps1] c main_v5
    = marginals (m ((c : Thread nD τ).loc main_arg2)) (m ((c : Thread nD τ).loc main_arg0)) := by
  rw [tail_v5, final3, V_main_arg2, V_main_v0]
  exact marginals_eq _ _

theorem v4_eq (c : Dev nD) : Pipeline.afterTail₀ cfgs (dats m) 0 (V0 m) [hostOps1] c main_v4
    = meanLoss (m ((c : Thread nD τ).loc main_arg2)) (m ((c : Thread nD τ).loc main_arg0)) (m ((c : Thread nD τ).loc main_arg1)) := by
  rw [tail_v4, final4, V_main_arg2, V_main_v0, V_main_v1]
  exact meanLoss_eq _ _ _

/-- Every weakly fair execution of the kernel program terminates with the mean loss and the marginals of its arguments
    in its two results, and the arguments unchanged. -/
theorem run : θ_run defs (onTc (τ := τ) (main (F := Ideal))) ⟨m, fun _ => 0, ρ⟩ fun r => ∀ c : Dev nD,
      r.2.mem ((c.tc : Thread nD τ).loc main_v4)
          = meanLoss (m ((c.tc : Thread nD τ).loc main_arg2)) (m ((c.tc : Thread nD τ).loc main_arg0)) (m ((c.tc : Thread nD τ).loc main_arg1))
      ∧ r.2.mem ((c.tc : Thread nD τ).loc main_v5)
          = marginals (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (v4_eq m c),
     ((h c).2 main_v5 (Pipeline.mem_restRefs_of main_v5 (by decide) (by decide))).trans (v5_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c)))⟩)
    (run_main m ρ)

end Cert.KernelIdeal.Whole

end
-- ==== Proof.RefIsSpec.lean ====
/-
  The reference program, read index by index, is the specification.

  Every operation of the reference is read at an index through the generated reading lemmas, the layout operations
  (transposes, broadcasts, the flattening reshape) by naming the index they read by its coordinates. The potentials are
  the matrix product of the state matrix, read as numbers, with the logits; the largest potential is the fold of the
  maximum from the word of minus infinity over the 1024 states; the masses, the partition function and the marginals
  follow entry by entry; the loss of the entry at flat index `16 b + l` is read from the marginal and the soft label at
  `(b, l)`, and the result is their sum over the flat index divided by the count.
-/
import proofs.«122330_j50294067036168_2_alg».proof.Proof.Gen.ReferenceIdeal.Read
import proofs.«122330_j50294067036168_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx FocalSpec

variable (x0 x1 : (⟨S32768x16, .f32⟩ : BufTy).Contents (Elt Ideal)) (x2 : (⟨S1024x16, .i32⟩ : BufTy).Contents (Elt Ideal))

/-! ## The potentials -/

/-- The left operand of the first product at `(s, b)`, contraction coordinate `k`, is the state matrix at `(s, k)`. -/
theorem lidx_v2 (s : Fin 1024) (b : Fin 32768) (k : Fin 16) :
    lidx_main_v2 (ix2 s b) k = ix2 s k := by
  funext a; match a with | ⟨0, _⟩ => rfl | ⟨1, _⟩ => rfl

/-- The right operand there is the transposed logits at `(k, b)`, that is the logits at `(b, k)`. -/
theorem idx_v1_ridx_v2 (s : Fin 1024) (b : Fin 32768) (k : Fin 16) :
    idx_main_v1 (ridx_main_v2 (ix2 s b) k) = ix2 b k := by
  funext a; match a with | ⟨0, _⟩ => rfl | ⟨1, _⟩ => rfl

/-- The first product at `(s, b)` is the potential of state `s` on sample `b`. -/
theorem ref_pot (s : Fin 1024) (b : Fin 32768) :
    val_main_v2 (F := Ideal) x0 x2 (ix2 s b) = pot (asNumber x2) (rows x0 b) s := by
  rw [val_main_v2_apply]
  unfold pot
  refine Finset.sum_congr rfl fun k _ => ?_
  rw [val_main_v0_apply, val_main_v1_apply, lidx_v2, idx_v1_ridx_v2]
  rfl

/-! ## The largest potential -/

/-- Dropping the state axis of a [1024, 32768] array leaves the sample axis. -/
theorem reduces_d0 : S1024x32768.Reduces [0] S32768 := by decide

/-- Sample `b` with state `k` inserted on the dropped axis is the entry `(k, b)`. -/
theorem lift_v3 (b : Fin 32768) (k : Fin 1024) : reduces_d0.lift (ix1 b) k = ix2 k b := by
  funext a; match a with | ⟨0, _⟩ => rfl | ⟨1, _⟩ => rfl

/-- The maximum over the states, started from the word of minus infinity, at sample `b`. -/
theorem ref_top (b : Fin 32768) :
    val_main_v3 (F := Ideal) x0 x2 (ix1 b) = top (asNumber x2) (rows x0 b) := by
  unfold val_main_v3
  rw [Host.reduce_eq_fold_single (FloatOps.maximumf (F := Ideal) (φ := .f32)) _ _ reducesTo_S1024x32768_S32768_d0 reduces_d0 h_S_ (ix1 b)]
  have e : (val_main_v2 (F := Ideal) x0 x2 ∘ reduces_d0.lift (ix1 b)) = pot (asNumber x2) (rows x0 b) := by
    funext k
    exact (congrArg (val_main_v2 (F := Ideal) x0 x2) (lift_v3 b k)).trans (ref_pot x0 x2 k b)
  rw [e]
  rfl

/-! ## The masses, the partition function and the marginals -/

/-- The two broadcasts of the maximum read it at the sample. -/
theorem idx_v4_v5 (s : Fin 1024) (b : Fin 32768) : idx_main_v4 (idx_main_v5 (ix2 s b)) = ix1 b := by
  funext a; match a with | ⟨0, _⟩ => rfl

/-- The exponential of the potential less the maximum at `(s, b)` is the mass of state `s` on sample `b`. -/
theorem ref_mass (s : Fin 1024) (b : Fin 32768) :
    val_main_v7 (F := Ideal) x0 x2 (ix2 s b) = mass (asNumber x2) (rows x0 b) s := by
  rw [val_main_v7_apply, val_main_v6_apply, val_main_v5_apply, val_main_v4_apply, idx_v4_v5, ref_top, ref_pot]
  rfl

/-- The sum over the states reads the masses at `(k, b)`. -/
theorem idx_v8 (b : Fin 32768) (k : Fin 1024) : idx_main_v8 (ix1 b) k = ix2 k b := by
  funext a; match a with | ⟨0, _⟩ => rfl | ⟨1, _⟩ => rfl

/-- The sum of the masses over the states, started from the zero word, is the partition function. -/
theorem ref_part (b : Fin 32768) :
    val_main_v8 (F := Ideal) x0 x2 (ix1 b) = part (asNumber x2) (rows x0 b) := by
  rw [val_main_v8_apply, val_main_cst_0_apply, Ideal.ofBits_def, Ideal.ofBits_zero_f32, zero_add]
  unfold part
  refine Finset.sum_congr rfl fun k _ => ?_
  rw [idx_v8, ref_mass]

/-- The left operand of the second product at `(l, b)`, contraction coordinate `k`: the transposed indicator at
    `(l, k)`, that is the indicator at `(k, l)`. -/
theorem idx_v12_lidx_v13 (l : Fin 16) (b : Fin 32768) (k : Fin 1024) :
    idx_main_v12 (lidx_main_v13 (ix2 l b) k) = ix2 k l := by
  funext a; match a with | ⟨0, _⟩ => rfl | ⟨1, _⟩ => rfl

/-- The right operand there is the mass at `(k, b)`. -/
theorem ridx_v13 (l : Fin 16) (b : Fin 32768) (k : Fin 1024) : ridx_main_v13 (ix2 l b) k = ix2 k b := by
  funext a; match a with | ⟨0, _⟩ => rfl | ⟨1, _⟩ => rfl

/-- The second product at `(l, b)`: the masses of the states whose entry at label `l` is positive, summed. -/
theorem ref_num (l : Fin 16) (b : Fin 32768) :
    val_main_v13 (F := Ideal) x0 x2 (ix2 l b)
      = ∑ s : Fin 1024, asIndicator x2 s l * mass (asNumber x2) (rows x0 b) s := by
  rw [val_main_v13_apply]
  refine Finset.sum_congr rfl fun k _ => ?_
  rw [val_main_v12_apply, val_main_v11_apply, val_main_v10_apply, val_main_v9_apply, val_main_c_apply,
    idx_v12_lidx_v13, ridx_v13, ref_mass]
  rfl

/-- The two broadcasts of the partition function read it at the sample. -/
theorem idx_v14_v15 (l : Fin 16) (b : Fin 32768) : idx_main_v14 (idx_main_v15 (ix2 l b)) = ix1 b := by
  funext a; match a with | ⟨0, _⟩ => rfl

/-- The quotient at `(l, b)` is the marginal of label `l` on sample `b`. -/
theorem ref_quot (l : Fin 16) (b : Fin 32768) :
    val_main_v16 (F := Ideal) x0 x2 (ix2 l b) = marg (asIndicator x2) (asNumber x2) (rows x0 b) l := by
  rw [val_main_v16_apply, val_main_v15_apply, val_main_v14_apply, idx_v14_v15, ref_part, ref_num]
  rfl

/-- The last transpose reads the quotient at `(l, b)` for the entry `(b, l)`. -/
theorem idx_v17 (i : S32768x16.Idx) : idx_main_v17 i = ix2 (n0 := 16) (n1 := 32768) (i 1) (i 0) := by
  funext a; match a with | ⟨0, _⟩ => rfl | ⟨1, _⟩ => rfl

/-- The reference's first result, entry by entry: the marginals. -/
theorem ref_marginal (i : S32768x16.Idx) :
    val_main_v17 (F := Ideal) x0 x2 i = marg (asIndicator x2) (asNumber x2) (rows x0 (i 0)) (i 1) := by
  rw [val_main_v17_apply, idx_v17]
  exact ref_quot x0 x2 (i 1) (i 0)

/-! ## The loss of one entry -/

/-- The flat index `16 b + l` reads the entry `(b, l)` of the marginals … -/
theorem idx_v18 (i : Fin 524288) :
    idx_main_v18 (ix1 i) = ix2 (n0 := 32768) (n1 := 16) ⟨i.val / 16, by omega⟩ ⟨i.val % 16, by omega⟩ := by
  funext a; match a with | ⟨0, _⟩ => rfl | ⟨1, _⟩ => rfl

/-- … and of the soft labels. -/
theorem idx_v19 (i : Fin 524288) :
    idx_main_v19 (ix1 i) = ix2 (n0 := 32768) (n1 := 16) ⟨i.val / 16, by omega⟩ ⟨i.val % 16, by omega⟩ := by
  funext a; match a with | ⟨0, _⟩ => rfl | ⟨1, _⟩ => rfl

/-- At a flat index the product of the three factors is the loss of the flattened marginal and soft label there,
    the square written as a power. -/
theorem ref_loss_at (j : S524288.Idx) :
    val_main_v54 (F := Ideal) x0 x1 x2 j
      = lossPow (val_main_v18 (F := Ideal) x0 x2 j) (val_main_v19 (F := Ideal) x1 j) := by
  simp only [val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply, val_main_v31_apply, val_main_v30_apply,
    val_main_v29_apply, val_main_v28_apply, val_main_v27_apply, val_main_v26_apply, val_main_v25_apply,
    val_main_v24_apply, val_main_v23_apply, val_main_v22_apply, val_main_v21_apply, val_main_v20_apply,
    val_main_cst_1_apply, val_main_cst_2_apply, val_main_cst_3_apply, val_main_cst_4_apply, val_main_cst_5_apply,
    val_main_cst_6_apply, val_main_cst_7_apply, val_main_cst_8_apply, val_main_cst_9_apply, val_main_cst_10_apply,
    val_main_cst_11_apply, val_main_cst_12_apply]
  generalize val_main_v18 (F := Ideal) x0 x2 j = p
  generalize val_main_v19 (F := Ideal) x1 j = g
  rfl

/-- The loss at the flat index `i`, from the marginal and the soft label at `(i / 16, i % 16)`. -/
theorem ref_loss (i : Fin 524288) :
    val_main_v54 (F := Ideal) x0 x1 x2 (ix1 i)
      = lossPow (marg (asIndicator x2) (asNumber x2) (rows x0 ⟨i.val / 16, by omega⟩) ⟨i.val % 16, by omega⟩)
          (rows x1 ⟨i.val / 16, by omega⟩ ⟨i.val % 16, by omega⟩) := by
  rw [ref_loss_at, val_main_v18_apply, val_main_v19_apply, idx_v18, idx_v19, ref_marginal]
  rfl

/-! ## The mean -/

/-- A rank-1 index set is its coordinate range … -/
def idxEquiv1 (n : Nat) : (⟨1, ![n]⟩ : Shape).Idx ≃ Fin n where
  toFun j := j 0
  invFun := ix1
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ i : Fin n, f (ix1 i) := by
  rw [← Equiv.sum_comp (idxEquiv1 n).symm f]
  rfl

/-- The reference's second result: the sum of the losses over the flat index, started from the zero word, over the
    count. -/
theorem ref_mean (i : S_.Idx) :
    val_main_v56 (F := Ideal) x0 x1 x2 i = meanFlat (asIndicator x2) (asNumber x2) (rows x0) (rows x1) := by
  rw [val_main_v56_apply, val_main_v55_apply, val_main_cst_13_apply, val_main_cst_14_apply]
  show Ideal.div (Ideal.ofBits .f32 0x00000000#32 + ∑ j : S524288.Idx, val_main_v54 (F := Ideal) x0 x1 x2 j) cCount = _
  rw [Ideal.ofBits_zero_f32, zero_add, sum_idx1]
  unfold meanFlat
  exact congrArg (Ideal.div · cCount) (Finset.sum_congr rfl fun k _ => ref_loss x0 x1 x2 k)

end Cert.ReferenceIdeal.RefValue

end
-- ==== Proof.Algebra.lean ====
/-
  The pure mathematics that joins the two programs, and the precondition decoded.

  Part 1 is stated over the specification `FocalSpec` alone. When every entry of the state matrix is the word 0 or
  the word 1, the matrix read as numbers and the indicator that an entry is positive are one matrix. For real
  logits every marginal is real: the potentials are finite sums of products of reals, their maximum over the
  (nonempty) family of states is one of them, each mass is the exponential of a real, hence a positive real, the
  partition function is a sum of positive reals, hence a nonzero real, and a quotient of reals by a nonzero real is
  real. On reals the square written as the power `r ^ 2` is the product `r * r`, so the two entry losses agree; and
  the sum over the flat index `16 b + l` regroups, in any additive commutative monoid, into the sum over samples and
  labels and then over 16 tiles of 2048 samples.

  Part 2 reads the printed precondition back: a conjunction of three `all`s that is 1 says that every `|x| < +∞`
  holds, i.e. every float entry is real, and that every entry of the state matrix equals 0 or equals 1.
-/
import proofs.«122330_j50294067036168_2_alg».proof.Proof.Spec
import proofs.«122330_j50294067036168_2_alg».proof.Proof.LibRealSums
import proofs.«122330_j50294067036168_2_alg».proof.Pre_finite_inputs
import proofs.«122330_j50294067036168_2_alg».proof.Proof.Gen.Pre_finite_inputs
import Idealize.ShloMosaic.Lib.ReduceAll
import Idealize.ShloMosaic.Lib.ValueIdx

noncomputable section

open scoped BigOperators
open FocalSpec LibRealSums Idealize.ShloMosaic

namespace FocalAlgebra

/-! ## The literals as reals -/

/-- The word of `1.0` denotes the real 1. -/
theorem cOne_eq : cOne = ((1 : ℝ) : EReal) := by
  simp [cOne, Ideal.ofBits, Ideal.ieee, -EReal.coe_mul]; norm_num

/-- The word of `2.0` denotes the real 2. -/
theorem cTwo_eq : cTwo = ((2 : ℝ) : EReal) := by
  simp [cTwo, Ideal.ofBits, Ideal.ieee, -EReal.coe_mul]; norm_num

/-- The word of `-∞` denotes `⊥`. -/
theorem cNegInf_eq : cNegInf = ⊥ := by
  simp [cNegInf, Ideal.ofBits, Ideal.ieee]

/-! ## A 0/1 matrix is its own positivity indicator -/

/-- For a state matrix of words 0 and 1, the indicator `0 < S` (signed), read as an unsigned bit, is the entry read
    as a signed number: both are the real 0 at the word 0 and the real 1 at the word 1. -/
theorem indicator_eq_number (S : (⟨2, ![1024, 16]⟩ : Shape).Idx → BitVec 32)
    (hS : ∀ i, S i = 0#32 ∨ S i = 1#32) : asIndicator S = asNumber S := by
  funext s l
  unfold asIndicator asNumber
  rcases hS (ValueIdx.ix2 s l) with h | h <;> rw [h]
  · show (((IntOp.cmpi .sgt (0#32) 0#32).toNat : ℝ) : EReal) = (((0#32 : BitVec 32).toInt : ℝ) : EReal)
    have e1 : IntOp.cmpi .sgt (0#32) 0#32 = 0#1 := by decide
    rw [e1]; norm_num
  · show (((IntOp.cmpi .sgt (1#32) 0#32).toNat : ℝ) : EReal) = (((1#32 : BitVec 32).toInt : ℝ) : EReal)
    have e1 : IntOp.cmpi .sgt (1#32) 0#32 = 1#1 := by decide
    rw [e1]; norm_num

/-! ## The square as a power and as a product -/

/-- On real arguments `1 - agreement` is a real `r`, and `r` to the power 2 is `r * r`: the two entry losses agree. -/
theorem lossPow_eq_lossSq (p g : EReal) (hp : IsReal p) (hg : IsReal g) : lossPow p g = lossSq p g := by
  have h1 : IsReal cOne := ⟨1, cOne_eq⟩
  have hr : IsReal (cOne - agree p g) :=
    h1.sub ((hp.mul hg).add ((h1.sub hp).mul (h1.sub hg)))
  obtain ⟨r, hr⟩ := hr
  unfold lossPow lossSq
  rw [hr, cTwo_eq, Ideal.pow_coe_coe, ← EReal.coe_mul]
  congr 2
  show r ^ (2 : ℝ) = r * r
  rw [Real.rpow_two, sq]

/-! ## Every marginal is real -/

/-- The state matrix read as numbers has real entries. -/
theorem asNumber_isReal (S : (⟨2, ![1024, 16]⟩ : Shape).Idx → BitVec 32) (s : Fin 1024) (l : Fin 16) :
    IsReal (asNumber S s l) := ⟨_, rfl⟩

section Marg
variable (v w : Fin 1024 → Fin 16 → EReal) (hv : ∀ s l, IsReal (v s l)) (hw : ∀ s l, IsReal (w s l))
variable (x : Fin 16 → EReal) (hx : ∀ l, IsReal (x l))
include hw hx

/-- A potential is a finite sum of products of reals. -/
theorem pot_isReal (s : Fin 1024) : IsReal (pot w x s) :=
  IsReal.sum_univ _ fun l => (hw s l).mul (hx l)

/-- The largest potential is real: it is below `⊤` because `-∞` and every potential are, and above `⊥` because the
    potential of state 0 is. -/
theorem top_isReal : IsReal (top w x) := by
  rw [IsReal.iff_ne]
  unfold top
  rw [cNegInf_eq]
  constructor
  · refine (ne_of_gt ?_)
    rw [Finset.lt_fold_max]
    exact Or.inr ⟨0, Finset.mem_univ _, bot_lt_iff_ne_bot.2 (pot_isReal w hw x hx 0).ne_bot⟩
  · refine (ne_of_lt ?_)
    rw [Finset.fold_max_lt]
    exact ⟨bot_lt_top, fun s _ => lt_top_iff_ne_top.2 (pot_isReal w hw x hx s).ne_top⟩

/-- Each mass is the exponential of a real. -/
theorem mass_eq_exp (s : Fin 1024) : ∃ r : ℝ, mass w x s = ((Real.exp r : ℝ) : EReal) := by
  obtain ⟨r, hr⟩ := (pot_isReal w hw x hx s).sub (top_isReal w hw x hx)
  exact ⟨r, by unfold mass; rw [hr, Ideal.exp_coe]⟩

/-- The partition function is a positive real. -/
theorem part_pos : ∃ z : ℝ, 0 < z ∧ part w x = (z : EReal) := by
  choose r hr using mass_eq_exp w hw x hx
  refine ⟨∑ s : Fin 1024, Real.exp (r s), Finset.sum_pos (fun s _ => Real.exp_pos _) Finset.univ_nonempty, ?_⟩
  unfold part
  rw [coe_sum_univ]
  exact Finset.sum_congr rfl fun s _ => hr s

include hv
/-- Every marginal is real: a real numerator over a nonzero real partition function. -/
theorem marg_isReal_of (l : Fin 16) : IsReal (marg v w x l) := by
  obtain ⟨z, hz, hpart⟩ := part_pos w hw x hx
  unfold marg
  rw [hpart]
  refine IsReal.div_coe (IsReal.sum_univ _ fun s => (hv s l).mul ?_) hz.ne'
  obtain ⟨r, hr⟩ := mass_eq_exp w hw x hx s
  exact ⟨_, hr⟩

end Marg

/-- Every marginal of the state matrix read as numbers, on real logits, is real. -/
theorem marg_isReal (S : (⟨2, ![1024, 16]⟩ : Shape).Idx → BitVec 32) (hS : ∀ i, S i = 0#32 ∨ S i = 1#32)
    (x : Fin 16 → EReal) (hx : ∀ l, IsReal (x l)) (l : Fin 16) :
    IsReal (marg (asNumber S) (asNumber S) x l) :=
  marg_isReal_of _ _ (asNumber_isReal S) (asNumber_isReal S) x hx l

/-! ## The flat sum regrouped into tiles -/

/-- The loss of entry `(b, l)`, the square as a product. -/
def entry (v w : Fin 1024 → Fin 16 → EReal) (X Y : Fin 32768 → Fin 16 → EReal) (b : Fin 32768) (l : Fin 16) : EReal :=
  lossSq (marg v w (X b) l) (Y b l)

/-- Sample `b` is the quotient of the flat index `16 b + l` by 16. -/
theorem flat_div (b : Fin 32768) (l : Fin 16) (h : (b.val * 16 + l.val) / 16 < 32768) :
    (⟨(b.val * 16 + l.val) / 16, h⟩ : Fin 32768) = b := Fin.ext (by show (b.val * 16 + l.val) / 16 = b.val; omega)

/-- Label `l` is the remainder of the flat index `16 b + l` by 16. -/
theorem flat_mod (b : Fin 32768) (l : Fin 16) (h : (b.val * 16 + l.val) % 16 < 16) :
    (⟨(b.val * 16 + l.val) % 16, h⟩ : Fin 16) = l := Fin.ext (by show (b.val * 16 + l.val) % 16 = l.val; omega)

/-- The mean over the flat index, the square as a power, is the mean over the tiles, the square as a product. -/
theorem meanFlat_eq_meanTiled (S : (⟨2, ![1024, 16]⟩ : Shape).Idx → BitVec 32) (hS : ∀ i, S i = 0#32 ∨ S i = 1#32)
    (X Y : Fin 32768 → Fin 16 → EReal) (hX : ∀ b l, IsReal (X b l)) (hY : ∀ b l, IsReal (Y b l)) :
    meanFlat (asNumber S) (asNumber S) X Y = meanTiled (asNumber S) (asNumber S) X Y := by
  unfold meanFlat meanTiled
  refine congrArg (fun t => Ideal.div t cCount) ?_
  calc ∑ i : Fin 524288, lossPow (marg (asNumber S) (asNumber S) (X ⟨i.val / 16, by omega⟩) ⟨i.val % 16, by omega⟩)
          (Y ⟨i.val / 16, by omega⟩ ⟨i.val % 16, by omega⟩)
      = ∑ i : Fin 524288, entry (asNumber S) (asNumber S) X Y ⟨i.val / 16, by omega⟩ ⟨i.val % 16, by omega⟩ :=
        Finset.sum_congr rfl fun i _ => lossPow_eq_lossSq _ _ (marg_isReal S hS _ (hX _) _) (hY _ _)
    _ = ∑ b : Fin 32768, ∑ l : Fin 16, entry (asNumber S) (asNumber S) X Y
            ⟨(b.val * 16 + l.val) / 16, by omega⟩ ⟨(b.val * 16 + l.val) % 16, by omega⟩ :=
        (sum_tiles (m := 32768) (n := 16) (N := 524288) (by norm_num)
          (fun i => entry (asNumber S) (asNumber S) X Y ⟨i.val / 16, by omega⟩ ⟨i.val % 16, by omega⟩)).symm
    _ = ∑ b : Fin 32768, ∑ l : Fin 16, entry (asNumber S) (asNumber S) X Y b l :=
        Finset.sum_congr rfl fun b _ => Finset.sum_congr rfl fun l _ => by rw [flat_div, flat_mod]
    _ = ∑ t : Fin 16, ∑ j : Fin 2048, ∑ l : Fin 16, entry (asNumber S) (asNumber S) X Y ⟨t.val * 2048 + j.val, by omega⟩ l :=
        (sum_tiles (m := 16) (n := 2048) (N := 32768) (by norm_num)
          (fun b => ∑ l : Fin 16, entry (asNumber S) (asNumber S) X Y b l)).symm

/-! ## The precondition decoded -/

/-- The one index set of a rank-0 shape has one element. -/
instance subsingleton_S_ : Subsingleton Cert.Pre_finite_inputs.S_.Idx := ⟨fun a b => funext fun d => d.elim0⟩

/-- An extended real whose absolute value is below `+∞` is real: at `⊥` and at `⊤` the absolute value is `⊤`. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition decoded: every entry of the two float arrays is real, every entry of the state matrix is 0 or 1. -/
theorem pre_decoded (x0 x1 : FVec Ideal Cert.Pre_finite_inputs.S32768x16 .f32) (x2 : IVec Cert.Pre_finite_inputs.S1024x16 32)
    (h : Cert.Pre_finite_inputs.fn (F := Ideal) x0 x1 x2 = fun _ => 1#1) :
    (∀ i, IsReal (x0 i)) ∧ (∀ i, IsReal (x1 i)) ∧ (∀ i, x2 i = 0#32 ∨ x2 i = 1#32) := by
  have e := congrFun h ValueIdx.ix0
  dsimp only [Cert.Pre_finite_inputs.fn] at e
  have handi : ∀ (a b : IVec Cert.Pre_finite_inputs.S_ 1) i, andi a b i = IntOp.andi (a i) (b i) := fun _ _ _ => rfl
  rw [handi] at e
  obtain ⟨e01, e2⟩ := IntOp.andi_eq_one.1 e
  rw [handi] at e01
  obtain ⟨e0, e1⟩ := IntOp.andi_eq_one.1 e01
  have f0 := Host.reduce_andi_all _ _ _ _ _ e0
  have f1 := Host.reduce_andi_all _ _ _ _ _ e1
  have f2 := Host.reduce_andi_all _ _ _ _ _ e2
  refine ⟨fun i => isReal_of_abs_lt_inf (x0 i) (f0 i), fun i => isReal_of_abs_lt_inf (x1 i) (f1 i), fun i => ?_⟩
  have g : IntOp.ori (IntOp.cmpi .eq (x2 i) 0#32) (IntOp.cmpi .eq (x2 i) 1#32) = 1#1 := f2 i
  rcases IntOp.ori_eq_one.1 g with g | g
  · exact Or.inl (IntOp.cmpi_eq.1 g)
  · exact Or.inr (IntOp.cmpi_eq.1 g)

end FocalAlgebra

end
-- ==== Proof.lean ====
/-
  The five claims for the focal fidelity loss kernel against its jnp reference.

  Both programs compute, per sample, the potentials of 1024 legal states, the masses `exp (potential - max)`, the
  partition function, the sixteen marginals, and from the marginals and the soft labels a focal loss averaged over all
  32768 × 16 entries. They differ in three ways. The kernel works on tiles of 2048 samples of the transposed inputs and
  sums the loss tile by tile, where the reference sums over the flat index: a regrouping of one finite sum. The kernel
  weights the masses by the state matrix read as numbers, the reference by the indicator that its entries are positive:
  one matrix, because the entries of a state matrix are 0 or 1 (the added precondition). The kernel squares
  `1 - agreement` as a product, the reference as a power with exponent 2: equal for a real base, and the base is real
  because finite logits give real potentials, masses in (0, 1] and a partition function of at least 1.

  The frames of the two kernel programs are the generated ones; the reference's frame is its generated run.
  The idealization rewrote nothing, so it is preserved trivially.
-/
import proofs.«122330_j50294067036168_2_alg».proof.Defs
import proofs.«122330_j50294067036168_2_alg».proof.Proof.Gen.Kernel
import proofs.«122330_j50294067036168_2_alg».proof.Proof.Gen.Kernel.Skeleton
import proofs.«122330_j50294067036168_2_alg».proof.Proof.Gen.Kernel.Launch
import proofs.«122330_j50294067036168_2_alg».proof.Proof.Gen.Kernel.Points
import proofs.«122330_j50294067036168_2_alg».proof.Proof.Gen.Kernel.Frame
import proofs.«122330_j50294067036168_2_alg».proof.Proof.Gen.KernelIdeal
import proofs.«122330_j50294067036168_2_alg».proof.Proof.Gen.KernelIdeal.Skeleton
import proofs.«122330_j50294067036168_2_alg».proof.Proof.Gen.KernelIdeal.Launch
import proofs.«122330_j50294067036168_2_alg».proof.Proof.Gen.KernelIdeal.Points
import proofs.«122330_j50294067036168_2_alg».proof.Proof.Gen.KernelIdeal.Frame
import proofs.«122330_j50294067036168_2_alg».proof.Proof.Gen.ReferenceIdeal
import proofs.«122330_j50294067036168_2_alg».proof.Proof.Gen.Pre_finite_inputs
import proofs.«122330_j50294067036168_2_alg».proof.Proof.Gen.ReferenceIdeal.Run
import proofs.«122330_j50294067036168_2_alg».proof.Proof.Gen.ReferenceIdeal.Read
import proofs.«122330_j50294067036168_2_alg».proof.Proof.KernelRun
import proofs.«122330_j50294067036168_2_alg».proof.Proof.RefIsSpec
import proofs.«122330_j50294067036168_2_alg».proof.Proof.Algebra
import Idealize.ShloMosaic.Adequacy
import Idealize.ShloMosaic.Init

noncomputable section

namespace Cert.Proof

open Idealize.ShloMosaic Idealize.ShloMosaic.TcCoe Idealize.SL.Sem FocalSpec

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, finite logits and soft labels and a 0/1 state matrix, both programs end with the
    mean loss summed tile by tile and with the marginals of the state matrix read as numbers. -/
theorem algebraic : Cert.algebraic_KernelIdeal_ReferenceIdeal := by
  intro m ρ m' ρ' hpre hagree
  refine ⟨fun c => Cert.KernelIdeal.Whole.meanLoss (m ((c.tc : Thread Cert.KernelIdeal.nD Cert.KernelIdeal.τ).loc Cert.KernelIdeal.main_arg2))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.KernelIdeal.Whole.marginals (m ((c.tc : Thread Cert.KernelIdeal.nD Cert.KernelIdeal.τ).loc Cert.KernelIdeal.main_arg2))
      (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ?_) (Cert.ReferenceIdeal.Value.run (F := Ideal) m' ρ')
  obtain ⟨hf, hy, hS⟩ := FocalAlgebra.pre_decoded _ _ _ (hpre c)
  refine ⟨(h c).1.trans ?_, (h c).2.1.trans ?_, (h c).2.2⟩
  · rw [Cert.ReferenceIdeal.Read.val_main_v56_eq, (hagree c).1, (hagree c).2.1, (hagree c).2.2]
    funext i
    rw [Cert.ReferenceIdeal.RefValue.ref_mean, FocalAlgebra.indicator_eq_number _ hS]
    exact FocalAlgebra.meanFlat_eq_meanTiled _ hS _ _ (fun b l => hf _) (fun b l => hy _)
  · rw [Cert.ReferenceIdeal.Read.val_main_v17_eq, (hagree c).1, (hagree c).2.2]
    funext i
    rw [Cert.ReferenceIdeal.RefValue.ref_marginal, FocalAlgebra.indicator_eq_number _ hS]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
